-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x8 : Shape := ⟨2, ![2000000, 8]⟩
abbrev S2000000 : Shape := ⟨1, ![2000000]⟩
abbrev S65536x3 : Shape := ⟨2, ![65536, 3]⟩
abbrev S2000000x3 : Shape := ⟨2, ![2000000, 3]⟩
abbrev S11x8 : Shape := ⟨2, ![11, 8]⟩
abbrev S8 : Shape := ⟨1, ![8]⟩
abbrev S8x16 : Shape := ⟨2, ![8, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S11x64 : Shape := ⟨2, ![11, 64]⟩
abbrev S64x1 : Shape := ⟨2, ![64, 1]⟩
abbrev S1 : Shape := ⟨1, ![1]⟩
abbrev S64x128 : Shape := ⟨2, ![64, 128]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S2000000x8 : S_.BroadcastsInDim S2000000x8 (![] : Fin 0 → Fin S2000000x8.rank)
  reducesTo_S2000000x8_S_d0_1 : S2000000x8.ReducesTo [0, 1] S_
  h_S_ : 0 < S_.numel
  bcast_S_S65536x3 : S_.BroadcastsInDim S65536x3 (![] : Fin 0 → Fin S65536x3.rank)
  reducesTo_S65536x3_S_d0_1 : S65536x3.ReducesTo [0, 1] S_
  bcast_S_S2000000x3 : S_.BroadcastsInDim S2000000x3 (![] : Fin 0 → Fin S2000000x3.rank)
  reducesTo_S2000000x3_S_d0_1 : S2000000x3.ReducesTo [0, 1] S_
  bcast_S_S11x8 : S_.BroadcastsInDim S11x8 (![] : Fin 0 → Fin S11x8.rank)
  reducesTo_S11x8_S_d0_1 : S11x8.ReducesTo [0, 1] S_
  bcast_S_S8 : S_.BroadcastsInDim S8 (![] : Fin 0 → Fin S8.rank)
  reducesTo_S8_S_d0 : S8.ReducesTo [0] S_
  bcast_S_S8x16 : S_.BroadcastsInDim S8x16 (![] : Fin 0 → Fin S8x16.rank)
  reducesTo_S8x16_S_d0_1 : S8x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S11x64 : S_.BroadcastsInDim S11x64 (![] : Fin 0 → Fin S11x64.rank)
  reducesTo_S11x64_S_d0_1 : S11x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part5 {F : FTy → Type} [FloatOps F] (main_arg19 : FVec F S256 .f32) (main_v83 : IVec S_ 1) (main_v84 : FVec F S128x256 .f32) (main_cst_32 : FVec F S_ .f32) : IVec S_ 1 :=
  let main_v85 : FVec F S128x256 .f32 := broadcastInDim S128x256 ![] bcast_S_S128x256 main_cst_32
  let main_v86 : IVec S128x256 1 := cmpf .olt main_v84 main_v85
  let main_c_33 : IVec S_ 1 := constantI S_ 1 1#1
  let main_v87 : IVec S_ 1 := (fun x v => Host.reduce IntOp.andi x v reducesTo_S128x256_S_d0_1 h_S_) main_v86 main_c_33
  let main_v88 : IVec S_ 1 := andi main_v83 main_v87
  let main_v89 : FVec F S256 .f32 := Host.absf main_arg19
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  main_v93

def fn_part4 {F : FTy → Type} [FloatOps F] (main_arg15 : FVec F S1 .f32) (main_arg16 : FVec F S64x128 .f32) (main_arg17 : FVec F S128 .f32) (main_arg18 : FVec F S128x256 .f32) (main_arg19 : FVec F S256 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S64x128 .f32 := Host.absf main_arg16
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x256 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S11x64 .f32) (main_arg13 : FVec F S64 .f32) (main_arg14 : FVec F S64x1 .f32) (main_arg15 : FVec F S1 .f32) (main_arg16 : FVec F S64x128 .f32) (main_arg17 : FVec F S128 .f32) (main_arg18 : FVec F S128x256 .f32) (main_arg19 : FVec F S256 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S11x64 .f32 := Host.absf main_arg12
  let main_cst_20 : FVec F S_ .f32 := constant S_ .f32 0x7F800000#32
  let main_v55 : FVec F S11x64 .f32 := broadcastInDim S11x64 ![] bcast_S_S11x64 main_cst_20
  let main_v56 : IVec S11x64 1 := cmpf .olt main_v54 main_v55
  let main_c_21 : IVec S_ 1 := constantI S_ 1 1#1
  let main_v57 : IVec S_ 1 := (fun x v => Host.reduce IntOp.andi x v reducesTo_S11x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg14
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg15 main_arg16 main_arg17 main_arg18 main_arg19 main_v63 main_v67

def fn_part2 {F : FTy → Type} [FloatOps F] (main_arg8 : FVec F S16x32 .f32) (main_arg9 : FVec F S32 .f32) (main_arg10 : FVec F S32x64 .f32) (main_arg11 : FVec F S64 .f32) (main_arg12 : FVec F S11x64 .f32) (main_arg13 : FVec F S64 .f32) (main_arg14 : FVec F S64x1 .f32) (main_arg15 : FVec F S1 .f32) (main_arg16 : FVec F S64x128 .f32) (main_arg17 : FVec F S128 .f32) (main_arg18 : FVec F S128x256 .f32) (main_arg19 : FVec F S256 .f32) (main_v33 : IVec S_ 1) : IVec S_ 1 :=
  let main_v34 : FVec F S16x32 .f32 := Host.absf main_arg8
  let main_cst_12 : FVec F S_ .f32 := constant S_ .f32 0x7F800000#32
  let main_v35 : FVec F S16x32 .f32 := broadcastInDim S16x32 ![] bcast_S_S16x32 main_cst_12
  let main_v36 : IVec S16x32 1 := cmpf .olt main_v34 main_v35
  let main_c_13 : IVec S_ 1 := constantI S_ 1 1#1
  let main_v37 : IVec S_ 1 := (fun x v => Host.reduce IntOp.andi x v reducesTo_S16x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x64 .f32 := Host.absf main_arg10
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_arg18 main_arg19 main_v48 main_v49 main_v50

def fn_part1 {F : FTy → Type} [FloatOps F] (main_arg5 : FVec F S8 .f32) (main_arg6 : FVec F S8x16 .f32) (main_arg7 : FVec F S16 .f32) (main_arg8 : FVec F S16x32 .f32) (main_arg9 : FVec F S32 .f32) (main_arg10 : FVec F S32x64 .f32) (main_arg11 : FVec F S64 .f32) (main_arg12 : FVec F S11x64 .f32) (main_arg13 : FVec F S64 .f32) (main_arg14 : FVec F S64x1 .f32) (main_arg15 : FVec F S1 .f32) (main_arg16 : FVec F S64x128 .f32) (main_arg17 : FVec F S128 .f32) (main_arg18 : FVec F S128x256 .f32) (main_arg19 : FVec F S256 .f32) (main_v13 : IVec S_ 1) (main_v16 : IVec S11x8 1) : IVec S_ 1 :=
  let main_c_5 : IVec S_ 1 := constantI S_ 1 1#1
  let main_v17 : IVec S_ 1 := (fun x v => Host.reduce IntOp.andi x v reducesTo_S11x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x16 .f32 := Host.absf main_arg6
  let main_cst_8 : FVec F S_ .f32 := constant S_ .f32 0x7F800000#32
  let main_v25 : FVec F S8x16 .f32 := broadcastInDim S8x16 ![] bcast_S_S8x16 main_cst_8
  let main_v26 : IVec S8x16 1 := cmpf .olt main_v24 main_v25
  let main_c_9 : IVec S_ 1 := constantI S_ 1 1#1
  let main_v27 : IVec S_ 1 := (fun x v => Host.reduce IntOp.andi x v reducesTo_S8x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S2000000x8 .f32) (main_arg1 : IVec S2000000 32) (main_arg2 : FVec F S65536x3 .f32) (main_arg3 : FVec F S2000000x3 .f32) (main_arg4 : FVec F S11x8 .f32) (main_arg5 : FVec F S8 .f32) (main_arg6 : FVec F S8x16 .f32) (main_arg7 : FVec F S16 .f32) (main_arg8 : FVec F S16x32 .f32) (main_arg9 : FVec F S32 .f32) (main_arg10 : FVec F S32x64 .f32) (main_arg11 : FVec F S64 .f32) (main_arg12 : FVec F S11x64 .f32) (main_arg13 : FVec F S64 .f32) (main_arg14 : FVec F S64x1 .f32) (main_arg15 : FVec F S1 .f32) (main_arg16 : FVec F S64x128 .f32) (main_arg17 : FVec F S128 .f32) (main_arg18 : FVec F S128x256 .f32) (main_arg19 : FVec F S256 .f32) : IVec S_ 1 :=
  let main_v0 : FVec F S2000000x8 .f32 := Host.absf main_arg0
  let main_cst : FVec F S_ .f32 := constant S_ .f32 0x7F800000#32
  let main_v1 : FVec F S2000000x8 .f32 := broadcastInDim S2000000x8 ![] bcast_S_S2000000x8 main_cst
  let main_v2 : IVec S2000000x8 1 := cmpf .olt main_v0 main_v1
  let main_c : IVec S_ 1 := constantI S_ 1 1#1
  let main_v3 : IVec S_ 1 := (fun x v => Host.reduce IntOp.andi x v reducesTo_S2000000x8_S_d0_1 h_S_) main_v2 main_c
  let main_v4 : FVec F S65536x3 .f32 := Host.absf main_arg2
  let main_cst_0 : FVec F S_ .f32 := constant S_ .f32 0x7F800000#32
  let main_v5 : FVec F S65536x3 .f32 := broadcastInDim S65536x3 ![] bcast_S_S65536x3 main_cst_0
  let main_v6 : IVec S65536x3 1 := cmpf .olt main_v4 main_v5
  let main_c_1 : IVec S_ 1 := constantI S_ 1 1#1
  let main_v7 : IVec S_ 1 := (fun x v => Host.reduce IntOp.andi x v reducesTo_S65536x3_S_d0_1 h_S_) main_v6 main_c_1
  let main_v8 : IVec S_ 1 := andi main_v3 main_v7
  let main_v9 : FVec F S2000000x3 .f32 := Host.absf main_arg3
  let main_cst_2 : FVec F S_ .f32 := constant S_ .f32 0x7F800000#32
  let main_v10 : FVec F S2000000x3 .f32 := broadcastInDim S2000000x3 ![] bcast_S_S2000000x3 main_cst_2
  let main_v11 : IVec S2000000x3 1 := cmpf .olt main_v9 main_v10
  let main_c_3 : IVec S_ 1 := constantI S_ 1 1#1
  let main_v12 : IVec S_ 1 := (fun x v => Host.reduce IntOp.andi x v reducesTo_S2000000x3_S_d0_1 h_S_) main_v11 main_c_3
  let main_v13 : IVec S_ 1 := andi main_v8 main_v12
  let main_v14 : FVec F S11x8 .f32 := Host.absf main_arg4
  let main_cst_4 : FVec F S_ .f32 := constant S_ .f32 0x7F800000#32
  let main_v15 : FVec F S11x8 .f32 := broadcastInDim S11x8 ![] bcast_S_S11x8 main_cst_4
  let main_v16 : IVec S11x8 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S2000000x8 : Shape := ⟨2, ![2000000, 8]⟩
abbrev S2000000 : Shape := ⟨1, ![2000000]⟩
abbrev S65536x3 : Shape := ⟨2, ![65536, 3]⟩
abbrev S2000000x3 : Shape := ⟨2, ![2000000, 3]⟩
abbrev S11x8 : Shape := ⟨2, ![11, 8]⟩
abbrev S8 : Shape := ⟨1, ![8]⟩
abbrev S8x16 : Shape := ⟨2, ![8, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S11x64 : Shape := ⟨2, ![11, 64]⟩
abbrev S64x1 : Shape := ⟨2, ![64, 1]⟩
abbrev S1 : Shape := ⟨1, ![1]⟩
abbrev S64x128 : Shape := ⟨2, ![64, 128]⟩
abbrev S128 : Shape := ⟨1, ![128]⟩
abbrev S128x256 : Shape := ⟨2, ![128, 256]⟩
abbrev S256 : Shape := ⟨1, ![256]⟩
abbrev S_ : Shape := ⟨0, ![]⟩
abbrev S2000000x1 : Shape := ⟨2, ![2000000, 1]⟩
abbrev S2000000x11 : Shape := ⟨2, ![2000000, 11]⟩
abbrev S2000000x64 : Shape := ⟨2, ![2000000, 64]⟩
abbrev S16000x11 : Shape := ⟨2, ![16000, 11]⟩
abbrev S16000x64 : Shape := ⟨2, ![16000, 64]⟩
abbrev S16000x8 : Shape := ⟨2, ![16000, 8]⟩
abbrev S1x8 : Shape := ⟨2, ![1, 8]⟩
abbrev S16000x16 : Shape := ⟨2, ![16000, 16]⟩
abbrev S1x16 : Shape := ⟨2, ![1, 16]⟩
abbrev S16000x32 : Shape := ⟨2, ![16000, 32]⟩
abbrev S1x32 : Shape := ⟨2, ![1, 32]⟩
abbrev S1x64 : Shape := ⟨2, ![1, 64]⟩
abbrev S16000 : Shape := ⟨1, ![16000]⟩
abbrev S16000x1 : Shape := ⟨2, ![16000, 1]⟩
abbrev S1x1 : Shape := ⟨2, ![1, 1]⟩
abbrev S65536x64 : Shape := ⟨2, ![65536, 64]⟩
abbrev S65536x256 : Shape := ⟨2, ![65536, 256]⟩
abbrev S4096x64 : Shape := ⟨2, ![4096, 64]⟩
abbrev S4096x256 : Shape := ⟨2, ![4096, 256]⟩
abbrev S4096x128 : Shape := ⟨2, ![4096, 128]⟩
abbrev S1x128 : Shape := ⟨2, ![1, 128]⟩
abbrev S1x256 : Shape := ⟨2, ![1, 256]⟩

abbrev nBuf : Space → Nat
  | .hbm => 39
  | .vmem => 24
  | .smem => 0
  | _ => 0

abbrev bufTy : (tb : Table) → Fin (tcTables nBuf tb) → BufTy
  | .hbm, ⟨0, _⟩ => ⟨S2000000x8, .f32⟩
  | .hbm, ⟨1, _⟩ => ⟨S2000000, .i32⟩
  | .hbm, ⟨2, _⟩ => ⟨S65536x3, .f32⟩
  | .hbm, ⟨3, _⟩ => ⟨S2000000x3, .f32⟩
  | .hbm, ⟨4, _⟩ => ⟨S11x8, .f32⟩
  | .hbm, ⟨5, _⟩ => ⟨S8, .f32⟩
  | .hbm, ⟨6, _⟩ => ⟨S8x16, .f32⟩
  | .hbm, ⟨7, _⟩ => ⟨S16, .f32⟩
  | .hbm, ⟨8, _⟩ => ⟨S16x32, .f32⟩
  | .hbm, ⟨9, _⟩ => ⟨S32, .f32⟩
  | .hbm, ⟨10, _⟩ => ⟨S32x64, .f32⟩
  | .hbm, ⟨11, _⟩ => ⟨S64, .f32⟩
  | .hbm, ⟨12, _⟩ => ⟨S11x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S64x128, .f32⟩
  | .hbm, ⟨17, _⟩ => ⟨S128, .f32⟩
  | .hbm, ⟨18, _⟩ => ⟨S128x256, .f32⟩
  | .hbm, ⟨19, _⟩ => ⟨S256, .f32⟩
  | .hbm, ⟨20, _⟩ => ⟨S_, .i32⟩
  | .hbm, ⟨21, _⟩ => ⟨S2000000, .i32⟩
  | .hbm, ⟨22, _⟩ => ⟨S2000000, .i1⟩
  | .hbm, ⟨23, _⟩ => ⟨S_, .i32⟩
  | .hbm, ⟨24, _⟩ => ⟨S2000000, .i32⟩
  | .hbm, ⟨25, _⟩ => ⟨S2000000, .i32⟩
  | .hbm, ⟨26, _⟩ => ⟨S2000000, .i32⟩
  | .hbm, ⟨27, _⟩ => ⟨S2000000x1, .i32⟩
  | .hbm, ⟨28, _⟩ => ⟨S2000000x3, .f32⟩
  | .hbm, ⟨29, _⟩ => ⟨S2000000x3, .f32⟩
  | .hbm, ⟨30, _⟩ => ⟨S2000000x11, .f32⟩
  | .hbm, ⟨31, _⟩ => ⟨S2000000x11, .bf16⟩
  | .hbm, ⟨32, _⟩ => ⟨S2000000x64, .bf16⟩
  | .hbm, ⟨33, _⟩ => ⟨S2000000x64, .f32⟩
  | .hbm, ⟨34, _⟩ => ⟨S_, .f32⟩
  | .hbm, ⟨35, _⟩ => ⟨S65536x64, .f32⟩
  | .hbm, ⟨36, _⟩ => ⟨S2000000x1, .i32⟩
  | .hbm, ⟨37, _⟩ => ⟨S65536x64, .f32⟩
  | .hbm, ⟨38, _⟩ => ⟨S65536x256, .f32⟩
  | .local _ .vmem, ⟨0, _⟩ => ⟨S16000x11, .bf16⟩
  | .local _ .vmem, ⟨1, _⟩ => ⟨S16000x11, .bf16⟩
  | .local _ .vmem, ⟨2, _⟩ => ⟨S11x8, .f32⟩
  | .local _ .vmem, ⟨3, _⟩ => ⟨S8, .f32⟩
  | .local _ .vmem, ⟨4, _⟩ => ⟨S8x16, .f32⟩
  | .local _ .vmem, ⟨5, _⟩ => ⟨S16, .f32⟩
  | .local _ .vmem, ⟨6, _⟩ => ⟨S16x32, .f32⟩
  | .local _ .vmem, ⟨7, _⟩ => ⟨S32, .f32⟩
  | .local _ .vmem, ⟨8, _⟩ => ⟨S32x64, .f32⟩
  | .local _ .vmem, ⟨9, _⟩ => ⟨S64, .f32⟩
  | .local _ .vmem, ⟨10, _⟩ => ⟨S11x64, .f32⟩
  | .local _ .vmem, ⟨11, _⟩ => ⟨S64, .f32⟩
  | .local _ .vmem, ⟨12, _⟩ => ⟨S64x1, .f32⟩
  | .local _ .vmem, ⟨13, _⟩ => ⟨S1, .f32⟩
  | .local _ .vmem, ⟨14, _⟩ => ⟨S16000x64, .bf16⟩
  | .local _ .vmem, ⟨15, _⟩ => ⟨S16000x64, .bf16⟩
  | .local _ .vmem, ⟨16, _⟩ => ⟨S4096x64, .f32⟩
  | .local _ .vmem, ⟨17, _⟩ => ⟨S4096x64, .f32⟩
  | .local _ .vmem, ⟨18, _⟩ => ⟨S64x128, .f32⟩
  | .local _ .vmem, ⟨19, _⟩ => ⟨S128, .f32⟩
  | .local _ .vmem, ⟨20, _⟩ => ⟨S128x256, .f32⟩
  | .local _ .vmem, ⟨21, _⟩ => ⟨S256, .f32⟩
  | .local _ .vmem, ⟨22, _⟩ => ⟨S4096x256, .f32⟩
  | .local _ .vmem, ⟨23, _⟩ => ⟨S4096x256, .f32⟩
  | _, _ => ⟨S2000000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x11 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S11x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S16000x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x8_S2000000x3_S2000000x11_d1 : Shape.Concatenates [S2000000x8, S2000000x3] S2000000x11 1
  bitsLt_bf16_f32 : FTy.bits .bf16 < FTy.bits .f32
  inb_S16000x11_S16000x11_0_0 : ∀ a, (![0, 0] : Fin 2 → Nat) a + S16000x11.size a ≤ S16000x11.size a
  h_S16000x11 : 0 < S16000x11.numel
  shapeCasts_S16000x11_S16000x11 : S16000x11.ShapeCasts S16000x11
  inb_S11x8_S11x8_0_0 : ∀ a, (![0, 0] : Fin 2 → Nat) a + S11x8.size a ≤ S11x8.size a
  h_S11x8 : 0 < S11x8.numel
  inb_S8_S8_0 : ∀ a, (![0] : Fin 1 → Nat) a + S8.size a ≤ S8.size a
  h_S8 : 0 < S8.numel
  shapeCasts_S8_S1x8 : S8.ShapeCasts S1x8
  broadcasts_S1x8_S16000x8 : S1x8.Broadcasts S16000x8
  inb_S8x16_S8x16_0_0 : ∀ a, (![0, 0] : Fin 2 → Nat) a + S8x16.size a ≤ S8x16.size a
  h_S8x16 : 0 < S8x16.numel
  inb_S16_S16_0 : ∀ a, (![0] : Fin 1 → Nat) a + S16.size a ≤ S16.size a
  h_S16 : 0 < S16.numel
  shapeCasts_S16_S1x16 : S16.ShapeCasts S1x16
  broadcasts_S1x16_S16000x16 : S1x16.Broadcasts S16000x16
  inb_S16x32_S16x32_0_0 : ∀ a, (![0, 0] : Fin 2 → Nat) a + S16x32.size a ≤ S16x32.size a
  h_S16x32 : 0 < S16x32.numel
  inb_S32_S32_0 : ∀ a, (![0] : Fin 1 → Nat) a + S32.size a ≤ S32.size a
  h_S32 : 0 < S32.numel
  shapeCasts_S32_S1x32 : S32.ShapeCasts S1x32
  broadcasts_S1x32_S16000x32 : S1x32.Broadcasts S16000x32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S16000x64 : S1x64.Broadcasts S16000x64
  inb_S11x64_S11x64_0_0 : ∀ a, (![0, 0] : Fin 2 → Nat) a + S11x64.size a ≤ S11x64.size a
  h_S11x64 : 0 < S11x64.numel
  inb_S64x1_S64x1_0_0 : ∀ a, (![0, 0] : Fin 2 → Nat) a + S64x1.size a ≤ S64x1.size a
  h_S64x1 : 0 < S64x1.numel
  shapeCasts_S64x1_S64 : S64x1.ShapeCasts S64
  reduces_S16000x64_S16000 : S16000x64.Reduces [1] S16000
  shapeCasts_S16000_S16000x1 : S16000.ShapeCasts S16000x1
  inb_S1_S1_0 : ∀ a, (![0] : Fin 1 → Nat) a + S1.size a ≤ S1.size a
  h_S1 : 0 < S1.numel
  shapeCasts_S1_S1x1 : S1.ShapeCasts S1x1
  broadcasts_S1x1_S16000x1 : S1x1.Broadcasts S16000x1
  broadcasts_S16000x1_S16000x64 : S16000x1.Broadcasts S16000x64
  inb_S16000x64_S16000x64_0_0 : ∀ a, (![0, 0] : Fin 2 → Nat) a + S16000x64.size a ≤ S16000x64.size a
  h_S16000x64 : 0 < S16000x64.numel
  packedbf16_S16000x64_S16000x64_0_0 : (Rect.unit (s := S16000x64) ![0, 0] S16000x64.size inb_S16000x64_S16000x64_0_0).PackedRows (EltTy.packing .bf16)
  bcast_S_S65536x64 : S_.BroadcastsInDim S65536x64 (![] : Fin 0 → Fin S65536x64.rank)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  gather_S65536x3_S2000000x1_S2000000x3_1_0_n_n_0_1_13_wf : GatherDims.WF S65536x3 S2000000x1 S2000000x3 [1] [0] [] [0] [] 1 ![1, 3]
  dot_S16000x11_S11x8_S16000x8_1_0_0_1_n_n_wf : DotDims.WF S16000x11 S11x8 S16000x8 [1] [0] [0] [1] [] []
  dot_S16000x8_S8x16_S16000x16_1_0_0_1_n_n_wf : DotDims.WF S16000x8 S8x16 S16000x16 [1] [0] [0] [1] [] []
  dot_S16000x16_S16x32_S16000x32_1_0_0_1_n_n_wf : DotDims.WF S16000x16 S16x32 S16000x32 [1] [0] [0] [1] [] []
  dot_S16000x32_S32x64_S16000x64_1_0_0_1_n_n_wf : DotDims.WF S16000x32 S32x64 S16000x64 [1] [0] [0] [1] [] []
  dot_S16000x11_S11x64_S16000x64_1_0_0_1_n_n_wf : DotDims.WF S16000x11 S11x64 S16000x64 [1] [0] [0] [1] [] []
  scatter_S65536x64_S2000000x1_S2000000x64_1_0_0_1_wf : ScatterDims.WF S65536x64 S2000000x1 S2000000x64 [1] [0] [0] 1
  dot_S4096x64_S64x128_S4096x128_1_0_0_1_n_n_wf : DotDims.WF S4096x64 S64x128 S4096x128 [1] [0] [0] [1] [] []
  dot_S4096x128_S128x256_S4096x256_1_0_0_1_n_n_wf : DotDims.WF S4096x128 S128x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x11.size a ≤ S2000000x11.size a
  hwx0_0 : ∀ i : grid0.Coords, EltTy.bits .bf16 = 32 ∨ (Rect.block (s := S2000000x11) S16000x11.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x8.size a ≤ S11x8.size a
  hwx0_1 : ∀ i : grid0.Coords, EltTy.bits .f32 = 32 ∨ (Rect.block (s := S11x8) S11x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x16.size a ≤ S8x16.size a
  hwx0_3 : ∀ i : grid0.Coords, EltTy.bits .f32 = 32 ∨ (Rect.block (s := S8x16) S8x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x32.size a ≤ S16x32.size a
  hwx0_5 : ∀ i : grid0.Coords, EltTy.bits .f32 = 32 ∨ (Rect.block (s := S16x32) S16x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x64.size a ≤ S32x64.size a
  hwx0_7 : ∀ i : grid0.Coords, EltTy.bits .f32 = 32 ∨ (Rect.block (s := S32x64) S32x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S11x64.size a ≤ S11x64.size a
  hwx0_9 : ∀ i : grid0.Coords, EltTy.bits .f32 = 32 ∨ (Rect.block (s := S11x64) S11x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x1.size a ≤ S64x1.size a
  hwx0_11 : ∀ i : grid0.Coords, EltTy.bits .f32 = 32 ∨ (Rect.block (s := S64x1) S64x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S16000x64.size a ≤ S2000000x64.size a
  hwx0_13 : ∀ i : grid0.Coords, EltTy.bits .bf16 = 32 ∨ (Rect.block (s := S2000000x64) S16000x64.size (cc0_transform_13 i) (hinb0_13 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S65536x64.size a
  hwx1_0 : ∀ i : grid1.Coords, EltTy.bits .f32 = 32 ∨ (Rect.block (s := S65536x64) S4096x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x256.size a ≤ S65536x256.size a
  hwx1_5 : ∀ i : grid1.Coords, EltTy.bits .f32 = 32 ∨ (Rect.block (s := S65536x256) S4096x256.size (cc1_transform_5 i) (hinb1_5 i)).WholeWords (EltTy.packing .f32)

variable [Facts₀]

def gather_S65536x3_S2000000x1_S2000000x3_1_0_n_n_0_1_13 : GatherDims S65536x3 S2000000x1 S2000000x3 where
  offsetDims := [1]
  collapsedSliceDims := [0]
  operandBatchingDims := []
  startIndicesBatchingDims := []
  startIndexMap := [0]
  indexVectorDim := 1
  sliceSizes := ![1, 3]
  wf := gather_S65536x3_S2000000x1_S2000000x3_1_0_n_n_0_1_13_wf
def dot_S16000x11_S11x8_S16000x8_1_0_0_1_n_n : DotDims S16000x11 S11x8 S16000x8 where
  lhsContracting := [1]
  rhsContracting := [0]
  lhsNonContracting := [0]
  rhsNonContracting := [1]
  lhsBatch := []
  rhsBatch := []
  wf := dot_S16000x11_S11x8_S16000x8_1_0_0_1_n_n_wf
def dot_S16000x8_S8x16_S16000x16_1_0_0_1_n_n : DotDims S16000x8 S8x16 S16000x16 where
  lhsContracting := [1]
  rhsContracting := [0]
  lhsNonContracting := [0]
  rhsNonContracting := [1]
  lhsBatch := []
  rhsBatch := []
  wf := dot_S16000x8_S8x16_S16000x16_1_0_0_1_n_n_wf
def dot_S16000x16_S16x32_S16000x32_1_0_0_1_n_n : DotDims S16000x16 S16x32 S16000x32 where
  lhsContracting := [1]
  rhsContracting := [0]
  lhsNonContracting := [0]
  rhsNonContracting := [1]
  lhsBatch := []
  rhsBatch := []
  wf := dot_S16000x16_S16x32_S16000x32_1_0_0_1_n_n_wf
def dot_S16000x32_S32x64_S16000x64_1_0_0_1_n_n : DotDims S16000x32 S32x64 S16000x64 where
  lhsContracting := [1]
  rhsContracting := [0]
  lhsNonContracting := [0]
  rhsNonContracting := [1]
  lhsBatch := []
  rhsBatch := []
  wf := dot_S16000x32_S32x64_S16000x64_1_0_0_1_n_n_wf
def dot_S16000x11_S11x64_S16000x64_1_0_0_1_n_n : DotDims S16000x11 S11x64 S16000x64 where
  lhsContracting := [1]
  rhsContracting := [0]
  lhsNonContracting := [0]
  rhsNonContracting := [1]
  lhsBatch := []
  rhsBatch := []
  wf := dot_S16000x11_S11x64_S16000x64_1_0_0_1_n_n_wf
def scatter_S65536x64_S2000000x1_S2000000x64_1_0_0_1 : ScatterDims S65536x64 S2000000x1 S2000000x64 where
  updateWindowDims := [1]
  insertedWindowDims := [0]
  scatterDimsToOperandDims := [0]
  indexVectorDim := 1
  wf := scatter_S65536x64_S2000000x1_S2000000x64_1_0_0_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf

abbrev win0_0 : Pipeline.Window sig grid0 :=
  Pipeline.Window.ofSpec (Memref.whole main_v9) S16000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S11x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S8x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S16x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S32x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S11x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S64x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg15) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10) S16000x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v14) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg16) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg17) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg18) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg19) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S4096x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2000000x8 : Shape := ⟨2, ![2000000, 8]⟩
abbrev S2000000 : Shape := ⟨1, ![2000000]⟩
abbrev S65536x3 : Shape := ⟨2, ![65536, 3]⟩
abbrev S2000000x3 : Shape := ⟨2, ![2000000, 3]⟩
abbrev S11x8 : Shape := ⟨2, ![11, 8]⟩
abbrev S8 : Shape := ⟨1, ![8]⟩
abbrev S8x16 : Shape := ⟨2, ![8, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S11x64 : Shape := ⟨2, ![11, 64]⟩
abbrev S64x1 : Shape := ⟨2, ![64, 1]⟩
abbrev S1 : Shape := ⟨1, ![1]⟩
abbrev S64x128 : Shape := ⟨2, ![64, 128]⟩
abbrev S128 : Shape := ⟨1, ![128]⟩
abbrev S128x256 : Shape := ⟨2, ![128, 256]⟩
abbrev S256 : Shape := ⟨1, ![256]⟩
abbrev S_ : Shape := ⟨0, ![]⟩
abbrev S2000000x1 : Shape := ⟨2, ![2000000, 1]⟩
abbrev S2000000x11 : Shape := ⟨2, ![2000000, 11]⟩
abbrev S1x8 : Shape := ⟨2, ![1, 8]⟩
abbrev S2000000x16 : Shape := ⟨2, ![2000000, 16]⟩
abbrev S1x16 : Shape := ⟨2, ![1, 16]⟩
abbrev S2000000x32 : Shape := ⟨2, ![2000000, 32]⟩
abbrev S1x32 : Shape := ⟨2, ![1, 32]⟩
abbrev S2000000x64 : Shape := ⟨2, ![2000000, 64]⟩
abbrev S1x64 : Shape := ⟨2, ![1, 64]⟩
abbrev S1x1 : Shape := ⟨2, ![1, 1]⟩
abbrev S65536x64 : Shape := ⟨2, ![65536, 64]⟩
abbrev S65536x128 : Shape := ⟨2, ![65536, 128]⟩
abbrev S1x128 : Shape := ⟨2, ![1, 128]⟩
abbrev S65536x256 : Shape := ⟨2, ![65536, 256]⟩
abbrev S1x256 : Shape := ⟨2, ![1, 256]⟩

abbrev nBuf : Space → Nat
  | .hbm => 98
  | .vmem => 0
  | .smem => 0
  | _ => 0

abbrev bufTy : (tb : Table) → Fin (tcTables nBuf tb) → BufTy
  | .hbm, ⟨0, _⟩ => ⟨S2000000x8, .f32⟩
  | .hbm, ⟨1, _⟩ => ⟨S2000000, .i32⟩
  | .hbm, ⟨2, _⟩ => ⟨S65536x3, .f32⟩
  | .hbm, ⟨3, _⟩ => ⟨S2000000x3, .f32⟩
  | .hbm, ⟨4, _⟩ => ⟨S11x8, .f32⟩
  | .hbm, ⟨5, _⟩ => ⟨S8, .f32⟩
  | .hbm, ⟨6, _⟩ => ⟨S8x16, .f32⟩
  | .hbm, ⟨7, _⟩ => ⟨S16, .f32⟩
  | .hbm, ⟨8, _⟩ => ⟨S16x32, .f32⟩
  | .hbm, ⟨9, _⟩ => ⟨S32, .f32⟩
  | .hbm, ⟨10, _⟩ => ⟨S32x64, .f32⟩
  | .hbm, ⟨11, _⟩ => ⟨S64, .f32⟩
  | .hbm, ⟨12, _⟩ => ⟨S11x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S64x128, .f32⟩
  | .hbm, ⟨17, _⟩ => ⟨S128, .f32⟩
  | .hbm, ⟨18, _⟩ => ⟨S128x256, .f32⟩
  | .hbm, ⟨19, _⟩ => ⟨S256, .f32⟩
  | .hbm, ⟨20, _⟩ => ⟨S_, .i32⟩
  | .hbm, ⟨21, _⟩ => ⟨S2000000, .i32⟩
  | .hbm, ⟨22, _⟩ => ⟨S2000000, .i1⟩
  | .hbm, ⟨23, _⟩ => ⟨S_, .i32⟩
  | .hbm, ⟨24, _⟩ => ⟨S2000000, .i32⟩
  | .hbm, ⟨25, _⟩ => ⟨S2000000, .i32⟩
  | .hbm, ⟨26, _⟩ => ⟨S2000000, .i32⟩
  | .hbm, ⟨27, _⟩ => ⟨S2000000x1, .i32⟩
  | .hbm, ⟨28, _⟩ => ⟨S2000000x3, .f32⟩
  | .hbm, ⟨29, _⟩ => ⟨S2000000x3, .f32⟩
  | .hbm, ⟨30, _⟩ => ⟨S2000000x11, .f32⟩
  | .hbm, ⟨31, _⟩ => ⟨S2000000x8, .f32⟩
  | .hbm, ⟨32, _⟩ => ⟨S1x8, .f32⟩
  | .hbm, ⟨33, _⟩ => ⟨S2000000x8, .f32⟩
  | .hbm, ⟨34, _⟩ => ⟨S2000000x8, .f32⟩
  | .hbm, ⟨35, _⟩ => ⟨S_, .f32⟩
  | .hbm, ⟨36, _⟩ => ⟨S2000000x8, .f32⟩
  | .hbm, ⟨37, _⟩ => ⟨S2000000x8, .f32⟩
  | .hbm, ⟨38, _⟩ => ⟨S2000000x16, .f32⟩
  | .hbm, ⟨39, _⟩ => ⟨S1x16, .f32⟩
  | .hbm, ⟨40, _⟩ => ⟨S2000000x16, .f32⟩
  | .hbm, ⟨41, _⟩ => ⟨S2000000x16, .f32⟩
  | .hbm, ⟨42, _⟩ => ⟨S_, .f32⟩
  | .hbm, ⟨43, _⟩ => ⟨S2000000x16, .f32⟩
  | .hbm, ⟨44, _⟩ => ⟨S2000000x16, .f32⟩
  | .hbm, ⟨45, _⟩ => ⟨S2000000x32, .f32⟩
  | .hbm, ⟨46, _⟩ => ⟨S1x32, .f32⟩
  | .hbm, ⟨47, _⟩ => ⟨S2000000x32, .f32⟩
  | .hbm, ⟨48, _⟩ => ⟨S2000000x32, .f32⟩
  | .hbm, ⟨49, _⟩ => ⟨S_, .f32⟩
  | .hbm, ⟨50, _⟩ => ⟨S2000000x32, .f32⟩
  | .hbm, ⟨51, _⟩ => ⟨S2000000x32, .f32⟩
  | .hbm, ⟨52, _⟩ => ⟨S2000000x64, .f32⟩
  | .hbm, ⟨53, _⟩ => ⟨S1x64, .f32⟩
  | .hbm, ⟨54, _⟩ => ⟨S2000000x64, .f32⟩
  | .hbm, ⟨55, _⟩ => ⟨S2000000x64, .f32⟩
  | .hbm, ⟨56, _⟩ => ⟨S_, .f32⟩
  | .hbm, ⟨57, _⟩ => ⟨S2000000x64, .f32⟩
  | .hbm, ⟨58, _⟩ => ⟨S2000000x64, .f32⟩
  | .hbm, ⟨59, _⟩ => ⟨S2000000x64, .f32⟩
  | .hbm, ⟨60, _⟩ => ⟨S1x64, .f32⟩
  | .hbm, ⟨61, _⟩ => ⟨S2000000x64, .f32⟩
  | .hbm, ⟨62, _⟩ => ⟨S2000000x64, .f32⟩
  | .hbm, ⟨63, _⟩ => ⟨S_, .f32⟩
  | .hbm, ⟨64, _⟩ => ⟨S2000000x64, .f32⟩
  | .hbm, ⟨65, _⟩ => ⟨S2000000x64, .f32⟩
  | .hbm, ⟨66, _⟩ => ⟨S2000000x1, .f32⟩
  | .hbm, ⟨67, _⟩ => ⟨S1x1, .f32⟩
  | .hbm, ⟨68, _⟩ => ⟨S2000000x1, .f32⟩
  | .hbm, ⟨69, _⟩ => ⟨S2000000x1, .f32⟩
  | .hbm, ⟨70, _⟩ => ⟨S2000000x1, .f32⟩
  | .hbm, ⟨71, _⟩ => ⟨S2000000x1, .f32⟩
  | .hbm, ⟨72, _⟩ => ⟨S_, .f32⟩
  | .hbm, ⟨73, _⟩ => ⟨S2000000x1, .f32⟩
  | .hbm, ⟨74, _⟩ => ⟨S2000000x1, .f32⟩
  | .hbm, ⟨75, _⟩ => ⟨S_, .f32⟩
  | .hbm, ⟨76, _⟩ => ⟨S2000000x1, .f32⟩
  | .hbm, ⟨77, _⟩ => ⟨S2000000x1, .f32⟩
  | .hbm, ⟨78, _⟩ => ⟨S2000000x64, .f32⟩
  | .hbm, ⟨79, _⟩ => ⟨S2000000x64, .f32⟩
  | .hbm, ⟨80, _⟩ => ⟨S_, .f32⟩
  | .hbm, ⟨81, _⟩ => ⟨S65536x64, .f32⟩
  | .hbm, ⟨82, _⟩ => ⟨S2000000x1, .i32⟩
  | .hbm, ⟨83, _⟩ => ⟨S65536x64, .f32⟩
  | .hbm, ⟨84, _⟩ => ⟨S65536x128, .f32⟩
  | .hbm, ⟨85, _⟩ => ⟨S1x128, .f32⟩
  | .hbm, ⟨86, _⟩ => ⟨S65536x128, .f32⟩
  | .hbm, ⟨87, _⟩ => ⟨S65536x128, .f32⟩
  | .hbm, ⟨88, _⟩ => ⟨S_, .f32⟩
  | .hbm, ⟨89, _⟩ => ⟨S65536x128, .f32⟩
  | .hbm, ⟨90, _⟩ => ⟨S65536x128, .f32⟩
  | .hbm, ⟨91, _⟩ => ⟨S65536x256, .f32⟩
  | .hbm, ⟨92, _⟩ => ⟨S1x256, .f32⟩
  | .hbm, ⟨93, _⟩ => ⟨S65536x256, .f32⟩
  | .hbm, ⟨94, _⟩ => ⟨S65536x256, .f32⟩
  | .hbm, ⟨95, _⟩ => ⟨S_, .f32⟩
  | .hbm, ⟨96, _⟩ => ⟨S65536x256, .f32⟩
  | .hbm, ⟨97, _⟩ => ⟨S65536x256, .f32⟩
  | _, _ => ⟨S2000000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_call0_cst : Ref sig .tc := ⟨.hbm, 35, rfl⟩
abbrev main_call0_v0 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_call1_cst : Ref sig .tc := ⟨.hbm, 42, rfl⟩
abbrev main_call1_v0 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_call2_cst : Ref sig .tc := ⟨.hbm, 49, rfl⟩
abbrev main_call2_v0 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call3_cst : Ref sig .tc := ⟨.hbm, 56, rfl⟩
abbrev main_call3_v0 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_call4_cst : Ref sig .tc := ⟨.hbm, 63, rfl⟩
abbrev main_call4_v0 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst : Ref sig .tc := ⟨.hbm, 72, rfl⟩
abbrev main_v40 : Ref sig .tc := ⟨.hbm, 73, rfl⟩
abbrev main_v41 : Ref sig .tc := ⟨.hbm, 74, rfl⟩
abbrev main_cst_1 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_2 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_call5_cst : Ref sig .tc := ⟨.hbm, 88, rfl⟩
abbrev main_call5_v0 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_call6_cst : Ref sig .tc := ⟨.hbm, 95, rfl⟩
abbrev main_call6_v0 : Ref sig .tc := ⟨.hbm, 96, rfl⟩
abbrev main_v58 : Ref sig .tc := ⟨.hbm, 97, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x8_S2000000x3_S2000000x11_d1 : Shape.Concatenates [S2000000x8, S2000000x3] S2000000x11 1
  bcast_S8_S1x8_1 : S8.BroadcastsInDim S1x8 (![1] : Fin 1 → Fin S1x8.rank)
  bcast_S1x8_S2000000x8_0_1 : S1x8.BroadcastsInDim S2000000x8 (![0, 1] : Fin 2 → Fin S2000000x8.rank)
  bcast_S_S2000000x8 : S_.BroadcastsInDim S2000000x8 (![] : Fin 0 → Fin S2000000x8.rank)
  bcast_S16_S1x16_1 : S16.BroadcastsInDim S1x16 (![1] : Fin 1 → Fin S1x16.rank)
  bcast_S1x16_S2000000x16_0_1 : S1x16.BroadcastsInDim S2000000x16 (![0, 1] : Fin 2 → Fin S2000000x16.rank)
  bcast_S_S2000000x16 : S_.BroadcastsInDim S2000000x16 (![] : Fin 0 → Fin S2000000x16.rank)
  bcast_S32_S1x32_1 : S32.BroadcastsInDim S1x32 (![1] : Fin 1 → Fin S1x32.rank)
  bcast_S1x32_S2000000x32_0_1 : S1x32.BroadcastsInDim S2000000x32 (![0, 1] : Fin 2 → Fin S2000000x32.rank)
  bcast_S_S2000000x32 : S_.BroadcastsInDim S2000000x32 (![] : Fin 0 → Fin S2000000x32.rank)
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  bcast_S_S2000000x1 : S_.BroadcastsInDim S2000000x1 (![] : Fin 0 → Fin S2000000x1.rank)
  bcast_S2000000x1_S2000000x64_0_1 : S2000000x1.BroadcastsInDim S2000000x64 (![0, 1] : Fin 2 → Fin S2000000x64.rank)
  bcast_S_S65536x64 : S_.BroadcastsInDim S65536x64 (![] : Fin 0 → Fin S65536x64.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  gather_S65536x3_S2000000x1_S2000000x3_1_0_n_n_0_1_13_wf : GatherDims.WF S65536x3 S2000000x1 S2000000x3 [1] [0] [] [0] [] 1 ![1, 3]
  dot_S2000000x11_S11x8_S2000000x8_1_0_0_1_n_n_wf : DotDims.WF S2000000x11 S11x8 S2000000x8 [1] [0] [0] [1] [] []
  dot_S2000000x8_S8x16_S2000000x16_1_0_0_1_n_n_wf : DotDims.WF S2000000x8 S8x16 S2000000x16 [1] [0] [0] [1] [] []
  dot_S2000000x16_S16x32_S2000000x32_1_0_0_1_n_n_wf : DotDims.WF S2000000x16 S16x32 S2000000x32 [1] [0] [0] [1] [] []
  dot_S2000000x32_S32x64_S2000000x64_1_0_0_1_n_n_wf : DotDims.WF S2000000x32 S32x64 S2000000x64 [1] [0] [0] [1] [] []
  dot_S2000000x11_S11x64_S2000000x64_1_0_0_1_n_n_wf : DotDims.WF S2000000x11 S11x64 S2000000x64 [1] [0] [0] [1] [] []
  dot_S2000000x64_S64x1_S2000000x1_1_0_0_1_n_n_wf : DotDims.WF S2000000x64 S64x1 S2000000x1 [1] [0] [0] [1] [] []
  scatter_S65536x64_S2000000x1_S2000000x64_1_0_0_1_wf : ScatterDims.WF S65536x64 S2000000x1 S2000000x64 [1] [0] [0] 1
  dot_S65536x64_S64x128_S65536x128_1_0_0_1_n_n_wf : DotDims.WF S65536x64 S64x128 S65536x128 [1] [0] [0] [1] [] []
  dot_S65536x128_S128x256_S65536x256_1_0_0_1_n_n_wf : DotDims.WF S65536x128 S128x256 S65536x256 [1] [0] [0] [1] [] []

variable [Facts₀]

def gather_S65536x3_S2000000x1_S2000000x3_1_0_n_n_0_1_13 : GatherDims S65536x3 S2000000x1 S2000000x3 where
  offsetDims := [1]
  collapsedSliceDims := [0]
  operandBatchingDims := []
  startIndicesBatchingDims := []
  startIndexMap := [0]
  indexVectorDim := 1
  sliceSizes := ![1, 3]
  wf := gather_S65536x3_S2000000x1_S2000000x3_1_0_n_n_0_1_13_wf
def dot_S2000000x11_S11x8_S2000000x8_1_0_0_1_n_n : DotDims S2000000x11 S11x8 S2000000x8 where
  lhsContracting := [1]
  rhsContracting := [0]
  lhsNonContracting := [0]
  rhsNonContracting := [1]
  lhsBatch := []
  rhsBatch := []
  wf := dot_S2000000x11_S11x8_S2000000x8_1_0_0_1_n_n_wf
def dot_S2000000x8_S8x16_S2000000x16_1_0_0_1_n_n : DotDims S2000000x8 S8x16 S2000000x16 where
  lhsContracting := [1]
  rhsContracting := [0]
  lhsNonContracting := [0]
  rhsNonContracting := [1]
  lhsBatch := []
  rhsBatch := []
  wf := dot_S2000000x8_S8x16_S2000000x16_1_0_0_1_n_n_wf
def dot_S2000000x16_S16x32_S2000000x32_1_0_0_1_n_n : DotDims S2000000x16 S16x32 S2000000x32 where
  lhsContracting := [1]
  rhsContracting := [0]
  lhsNonContracting := [0]
  rhsNonContracting := [1]
  lhsBatch := []
  rhsBatch := []
  wf := dot_S2000000x16_S16x32_S2000000x32_1_0_0_1_n_n_wf
def dot_S2000000x32_S32x64_S2000000x64_1_0_0_1_n_n : DotDims S2000000x32 S32x64 S2000000x64 where
  lhsContracting := [1]
  rhsContracting := [0]
  lhsNonContracting := [0]
  rhsNonContracting := [1]
  lhsBatch := []
  rhsBatch := []
  wf := dot_S2000000x32_S32x64_S2000000x64_1_0_0_1_n_n_wf
def dot_S2000000x11_S11x64_S2000000x64_1_0_0_1_n_n : DotDims S2000000x11 S11x64 S2000000x64 where
  lhsContracting := [1]
  rhsContracting := [0]
  lhsNonContracting := [0]
  rhsNonContracting := [1]
  lhsBatch := []
  rhsBatch := []
  wf := dot_S2000000x11_S11x64_S2000000x64_1_0_0_1_n_n_wf
def dot_S2000000x64_S64x1_S2000000x1_1_0_0_1_n_n : DotDims S2000000x64 S64x1 S2000000x1 where
  lhsContracting := [1]
  rhsContracting := [0]
  lhsNonContracting := [0]
  rhsNonContracting := [1]
  lhsBatch := []
  rhsBatch := []
  wf := dot_S2000000x64_S64x1_S2000000x1_1_0_0_1_n_n_wf
def scatter_S65536x64_S2000000x1_S2000000x64_1_0_0_1 : ScatterDims S65536x64 S2000000x1 S2000000x64 where
  updateWindowDims := [1]
  insertedWindowDims := [0]
  scatterDimsToOperandDims := [0]
  indexVectorDim := 1
  wf := scatter_S65536x64_S2000000x1_S2000000x64_1_0_0_1_wf
def dot_S65536x64_S64x128_S65536x128_1_0_0_1_n_n : DotDims S65536x64 S64x128 S65536x128 where
  lhsContracting := [1]
  rhsContracting := [0]
  lhsNonContracting := [0]
  rhsNonContracting := [1]
  lhsBatch := []
  rhsBatch := []
  wf := dot_S65536x64_S64x128_S65536x128_1_0_0_1_n_n_wf
def dot_S65536x128_S128x256_S65536x256_1_0_0_1_n_n : DotDims S65536x128 S128x256 S65536x256 where
  lhsContracting := [1]
  rhsContracting := [0]
  lhsNonContracting := [0]
  rhsNonContracting := [1]
  lhsBatch := []
  rhsBatch := []
  wf := dot_S65536x128_S128x256_S65536x256_1_0_0_1_n_n_wf

class Facts : Prop extends Facts₀ where

variable [Facts]
-- ==== Proof.KernelRun.lean ====
/-
  The kernel program's run, with its final memory named.

  Every weakly fair execution of the two-region program terminates without a fault, and in the final state every
  buffer that outlives the regions holds what the fold through the program's four segments leaves there: the host
  operations before the first region, the first region's write-backs, the host operations between the regions, the
  second region's write-backs. This is the launch theorem for a program of several regions, instantiated with the
  segments of this program and read at every such buffer rather than at the arguments only.
-/
import proofs.«172056_j46961172414970_2_alg».proof.Proof.Gen.KernelIdeal.Frame

set_option maxRecDepth 16384

noncomputable section

namespace Cert.PointCluster.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, and every surviving buffer at the fold's final contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result buffer and the twenty arguments, read off the final memory. -/
theorem run_named : θ_run defs (onTc (τ := τ) (main (F := F))) ⟨m, fun _ => 0, ρ⟩ (fun r => ∀ c : Dev nD,
      r.2.mem ((c.tc : Thread nD τ).loc main_v15) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
      ⟨(h c _ (mem_uc main_v15 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c),
       (h c _ (mem_uc main_arg18 (by decide))).trans (W4_main_arg18 m ρ c),
       (h c _ (mem_uc main_arg19 (by decide))).trans (W4_main_arg19 m ρ c)⟩)
    (run_all m ρ)

end Cert.PointCluster.KernelRun

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibAffineRow.lean ====
/-
  An affine layer as vector operations compute it, read at an index, over the extended reals.

  For an M × K matrix `a`, a K × N weight matrix `w` and a bias `b` of N numbers, the layer is the plain product of
  `a` with `w` (a `tpu.matmul` into the zero accumulator, the weights passed through a change of float format, which
  is the identity on extended reals) plus the bias viewed as one row [1, N] and spread over the M rows. At (r, j) that
  is Σ_k a(r, k) · w(k, j) + b(j), for any extents M, K, N.
-/
import Idealize.ShloMosaic.Lib.ValueIdx
import Idealize.ShloMosaic.Lib.ValueLayout
import Idealize.ShloMosaic.Lib.Pipeline.Value
import Idealize.ShloMosaic.PureOps.Ideal.Laws
import proofs.«172056_j46961172414970_2_alg».proof.Proof.LibPlainDot

noncomputable section

open scoped BigOperators

namespace Idealize.ShloMosaic.AffineRow

open Idealize.ShloMosaic Idealize.ShloMosaic.ValueIdx

variable {M K N : Nat}

/-- A vector of N numbers viewed as one row [1, N], read at (0, j), is its entry j: both sit at row-major position j. -/
theorem oneRow_apply {α : Type} (b : (⟨1, ![N]⟩ : Shape).Idx → α) (h : (⟨1, ![N]⟩ : Shape).ShapeCasts ⟨2, ![1, N]⟩) (j : Fin N) :
    shapeCast ⟨2, ![1, N]⟩ b h (ix2 (0 : Fin 1) j) = b (ix1 j) :=
  shapeCast_apply b h (ix2 (0 : Fin 1) j) (ix1 j) (by
    rw [Shape.rowMajor_val_one, Shape.rowMajor_val_two]
    show j.val = 0 * N + j.val
    rw [Nat.zero_mul, Nat.zero_add])

/-- The bias row spread over M rows, at (r, j), is the bias's entry j. -/
theorem biasRows_apply {α : Type} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (j : Fin N) :
    broadcastTo ⟨2, ![M, N]⟩ (shapeCast ⟨2, ![1, N]⟩ b h1) h2 (ix2 r j) = b (ix1 j) :=
  (broadcastTo_1b_ab_apply _ h2 r j).trans (oneRow_apply b h1 j)

/-- The layer at (r, j): Σ_k a(r, k) · w(k, j) + b(j). -/
theorem layer_apply {φ : FTy} (prec : Option ContractPrecision) (a : FVec Ideal ⟨2, ![M, K]⟩ φ)
    (w : FVec Ideal ⟨2, ![K, N]⟩ .f32) (hw : FTy.bf16.bits < FTy.f32.bits) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (r : Fin M) (j : Fin N) :
    addf (matmul (DotDims.plain M K N) prec a (truncf .bf16 w hw) (constant ⟨2, ![M, N]⟩ .f32 0x00000000#32))
        (broadcastTo ⟨2, ![M, N]⟩ (shapeCast ⟨2, ![1, N]⟩ b h1) h2) (ix2 r j)
      = (∑ k : Fin K, a (ix2 r k) * w (ix2 k j)) + b (ix1 j) := by
  rw [addf_apply, biasRows_apply]
  exact congrArg (· + b (ix1 j)) (PlainDot.matmul_zero_apply prec a (truncf .bf16 w hw) r j)

end Idealize.ShloMosaic.AffineRow

end
-- ==== Proof.LibDenseRows.lean ====
/-
  A dense layer with a clamp from below, read one row at a time, over the extended reals.

  For an M × K matrix A, a K × N weight matrix w, a bias b of N numbers and a floor z, the layer sends row r of A
  to the row  j ↦ max (Σ_k A(r, k) · w(k, j) + b(j), z).  Row r of the result depends on row r of A only, so a stack
  of such layers acts on every row separately. The same row function is what the vector operations compute (a plain
  product into the zero accumulator with the weights passed through a change of float format, the bias viewed as
  one row and spread over the rows, a maximum with a splat) and what the host's operations compute (a dot_general,
  the bias broadcast along axis 1 and then over the rows, a maximum with a broadcast rank-0 constant). No
  finiteness is needed: both spellings have literally the same terms.
-/
import Idealize.ShloMosaic.Lib.ValueIdx
import Idealize.ShloMosaic.Lib.ValueLayout
import Idealize.ShloMosaic.Lib.Pipeline.Value
import Idealize.ShloMosaic.PureOps.Ideal.Laws
import proofs.«172056_j46961172414970_2_alg».proof.Proof.LibPlainDot
import proofs.«172056_j46961172414970_2_alg».proof.Proof.LibAffineRow

noncomputable section

open scoped BigOperators

namespace Idealize.ShloMosaic.DenseRows

open Idealize.ShloMosaic Idealize.ShloMosaic.ValueIdx

variable {M K N : Nat}

/-- Row r of an M × K matrix, as a function of the column. -/
def row (A : (⟨2, ![M, K]⟩ : Shape).Idx → EReal) (r : Fin M) : Fin K → EReal := fun k => A (ix2 r k)

/-- The row x · w (no bias): j ↦ Σ_k x(k) · w(k, j). -/
def rowDot (x : Fin K → EReal) (w : (⟨2, ![K, N]⟩ : Shape).Idx → EReal) : Fin N → EReal :=
  fun j => ∑ k : Fin K, x k * w (ix2 k j)

/-- One layer on one row: j ↦ max (Σ_k x(k) · w(k, j) + b(j), z). -/
def layer (z : EReal) (x : Fin K → EReal) (w : (⟨2, ![K, N]⟩ : Shape).Idx → EReal)
    (b : (⟨1, ![N]⟩ : Shape).Idx → EReal) : Fin N → EReal :=
  fun j => max (rowDot x w j + b (ix1 j)) z

/-- A change of float format does not change a row. -/
theorem row_truncf {φ ψ : FTy} (A : FVec Ideal ⟨2, ![M, K]⟩ φ) (h : ψ.bits < φ.bits) (r : Fin M) :
    row (truncf ψ A h : FVec Ideal ⟨2, ![M, K]⟩ ψ) r = row A r := rfl

/-- Row r of a plain product into the zero accumulator is row r of the left operand times the right operand. -/
theorem row_matmul {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (w : FVec Ideal ⟨2, ![K, N]⟩ φ₂) (r : Fin M) :
    row (matmul d prec a w (constant ⟨2, ![M, N]⟩ .f32 0x00000000#32)) r = rowDot (row a r) w := by
  subst hd
  funext j
  exact PlainDot.matmul_zero_apply prec a w r j

/-- Row r of the host's plain dot_general is row r of the left operand times the right operand. -/
theorem row_dotGeneral {φ₁ φ₂ : FTy} (d : DotDims ⟨2, ![M, K]⟩ ⟨2, ![K, N]⟩ ⟨2, ![M, N]⟩) (hd : d = DotDims.plain M K N)
    (prec : Option ContractPrecision) (a : FVec Ideal ⟨2, ![M, K]⟩ φ₁) (w : FVec Ideal ⟨2, ![K, N]⟩ φ₂) (r : Fin M) :
    row (Host.dotGeneral d prec a w) r = rowDot (row a r) w := by
  subst hd
  funext j
  exact PlainDot.dotGeneral_apply prec .single a w r j

/-- The host's bias row: a vector broadcast along axis 1 into [1, N], at (0, j), is its entry j. -/
theorem rowInDim_apply {α : Type} (b : (⟨1, ![N]⟩ : Shape).Idx → α)
    (h : (⟨1, ![N]⟩ : Shape).BroadcastsInDim ⟨2, ![1, N]⟩ ![1]) (j : Fin N) :
    broadcastInDim ⟨2, ![1, N]⟩ ![1] h b (ix2 (0 : Fin 1) j) = b (ix1 j) := by
  refine broadcastInDim_apply ![1] h b (ix2 (0 : Fin 1) j) (ix1 j) fun ax => ?_
  match ax with
  | ⟨0, _⟩ =>
    show j.val = if N = 1 then 0 else j.val
    split
    · have := j.isLt; omega
    · rfl

/-- The host's spread of one row over M rows, at (r, j), is the row's entry (0, j). -/
theorem rowsInDim_apply {α : Type} (v : (⟨2, ![1, N]⟩ : Shape).Idx → α)
    (h : (⟨2, ![1, N]⟩ : Shape).BroadcastsInDim ⟨2, ![M, N]⟩ ![0, 1]) (r : Fin M) (j : Fin N) :
    broadcastInDim ⟨2, ![M, N]⟩ ![0, 1] h v (ix2 r j) = v (ix2 (0 : Fin 1) j) := by
  refine broadcastInDim_apply ![0, 1] h v (ix2 r j) (ix2 (0 : Fin 1) j) fun ax => ?_
  match ax with
  | ⟨0, _⟩ => show 0 = if (1 : Nat) = 1 then 0 else r.val; rw [if_pos rfl]
  | ⟨1, _⟩ =>
    show j.val = if N = 1 then 0 else j.val
    split
    · have := j.isLt; omega
    · rfl

/-- A rank-0 array broadcast to any shape reads its one entry everywhere. -/
theorem splat_apply {α : Type} (s : Shape) (x : (⟨0, ![]⟩ : Shape).Idx → α)
    (h : (⟨0, ![]⟩ : Shape).BroadcastsInDim s ![]) (i : s.Idx) :
    broadcastInDim s ![] h x i = x (fun a => a.elim0) :=
  broadcastInDim_apply ![] h x i (fun a => a.elim0) (fun a => a.elim0)

/-- The vector spelling of a layer, one row at a time. -/
theorem vector_row {φ : FTy} (d : DotDims ⟨2, ![M, K]⟩ ⟨2, ![K, N]⟩ ⟨2, ![M, N]⟩) (hd : d = DotDims.plain M K N)
    (prec : Option ContractPrecision) (a : FVec Ideal ⟨2, ![M, K]⟩ φ)
    (w : FVec Ideal ⟨2, ![K, N]⟩ .f32) (hw : FTy.bf16.bits < FTy.f32.bits) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (z : Ideal .f32) (r : Fin M) :
    row (maximumf (addf (matmul d prec a (truncf .bf16 w hw) (constant ⟨2, ![M, N]⟩ .f32 0x00000000#32))
        (broadcastTo ⟨2, ![M, N]⟩ (shapeCast ⟨2, ![1, N]⟩ b h1) h2)) (broadcast ⟨2, ![M, N]⟩ z)) r
      = layer z (row a r) w b := by
  subst hd
  funext j
  show maximumf _ _ (ix2 r j) = _
  rw [maximumf_apply, broadcast_apply, AffineRow.layer_apply]
  rfl

/-- The host's spelling of a layer, one row at a time. -/
theorem host_row {φ : FTy} (d : DotDims ⟨2, ![M, K]⟩ ⟨2, ![K, N]⟩ ⟨2, ![M, N]⟩) (hd : d = DotDims.plain M K N)
    (prec : Option ContractPrecision) (a : FVec Ideal ⟨2, ![M, K]⟩ φ)
    (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (zc : FVec Ideal ⟨0, ![]⟩ .f32) (h0 : (⟨0, ![]⟩ : Shape).BroadcastsInDim ⟨2, ![M, N]⟩ ![]) (r : Fin M) :
    row (maximumf (addf (Host.dotGeneral d prec a w)
        (broadcastInDim ⟨2, ![M, N]⟩ ![0, 1] h2 (broadcastInDim ⟨2, ![1, N]⟩ ![1] h1 b)))
        (broadcastInDim ⟨2, ![M, N]⟩ ![] h0 zc)) r
      = layer (zc (fun a => a.elim0)) (row a r) w b := by
  subst hd
  funext j
  show maximumf _ _ (ix2 r j) = _
  rw [maximumf_apply, addf_apply, splat_apply, rowsInDim_apply, rowInDim_apply]
  exact congrArg (fun s => max (s + b (ix1 j)) (zc fun a => a.elim0)) (PlainDot.dotGeneral_apply prec .single a w r j)

end Idealize.ShloMosaic.DenseRows

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.Spec.lean ====
/-
  What the two programs compute, one row at a time, over the extended reals.

  A point is a row x of 11 numbers (8 features and the 3 coordinates of its cluster's centre minus its own). Its
  edge vector is four dense layers 11 → 8 → 16 → 32 → 64, each followed by a maximum with zero; its attention score
  is a dense layer 11 → 64 with the same clamp followed by the inner product with one column of 64 weights plus a
  bias; the point's contribution is the edge vector times the logistic function of the score. A cluster is a row a of
  64 numbers (the sum of its points' contributions); its output is two clamped dense layers 64 → 128 → 256.
  Both programs apply these row functions to every row; nothing here needs finiteness.
-/
import Idealize.ShloMosaic.Lib.ValueIdx
import Idealize.ShloMosaic.PureOps.Ideal.Laws
import proofs.«172056_j46961172414970_2_alg».proof.Proof.LibDenseRows

noncomputable section

open scoped BigOperators

namespace Cert.PointCluster

open Idealize.ShloMosaic Idealize.ShloMosaic.ValueIdx Idealize.ShloMosaic.DenseRows

/-- The clamp of every layer: the value of the f32 word of 0.0. -/
abbrev floor0 : EReal := Ideal.ofBits .f32 0x00000000#32

/-- The edge vector of a point: four clamped dense layers. -/
def edge (x : Fin 11 → EReal)
    (we0 : (⟨2, ![11, 8]⟩ : Shape).Idx → EReal) (be0 : (⟨1, ![8]⟩ : Shape).Idx → EReal)
    (we1 : (⟨2, ![8, 16]⟩ : Shape).Idx → EReal) (be1 : (⟨1, ![16]⟩ : Shape).Idx → EReal)
    (we2 : (⟨2, ![16, 32]⟩ : Shape).Idx → EReal) (be2 : (⟨1, ![32]⟩ : Shape).Idx → EReal)
    (we3 : (⟨2, ![32, 64]⟩ : Shape).Idx → EReal) (be3 : (⟨1, ![64]⟩ : Shape).Idx → EReal) : Fin 64 → EReal :=
  layer floor0 (layer floor0 (layer floor0 (layer floor0 x we0 be0) we1 be1) we2 be2) we3 be3

/-- The attention score of a point: a clamped dense layer, then the inner product with the one column of wa1, plus ba1. -/
def score (x : Fin 11 → EReal)
    (wa0 : (⟨2, ![11, 64]⟩ : Shape).Idx → EReal) (ba0 : (⟨1, ![64]⟩ : Shape).Idx → EReal)
    (wa1 : (⟨2, ![64, 1]⟩ : Shape).Idx → EReal) (ba1 : (⟨1, ![1]⟩ : Shape).Idx → EReal) : EReal :=
  (∑ k : Fin 64, layer floor0 x wa0 ba0 k * wa1 (ix2 k (0 : Fin 1))) + ba1 (ix1 (0 : Fin 1))

/-- A point's contribution: its edge vector scaled by the logistic function of its score. -/
def pointRow (x : Fin 11 → EReal)
    (we0 : (⟨2, ![11, 8]⟩ : Shape).Idx → EReal) (be0 : (⟨1, ![8]⟩ : Shape).Idx → EReal)
    (we1 : (⟨2, ![8, 16]⟩ : Shape).Idx → EReal) (be1 : (⟨1, ![16]⟩ : Shape).Idx → EReal)
    (we2 : (⟨2, ![16, 32]⟩ : Shape).Idx → EReal) (be2 : (⟨1, ![32]⟩ : Shape).Idx → EReal)
    (we3 : (⟨2, ![32, 64]⟩ : Shape).Idx → EReal) (be3 : (⟨1, ![64]⟩ : Shape).Idx → EReal)
    (wa0 : (⟨2, ![11, 64]⟩ : Shape).Idx → EReal) (ba0 : (⟨1, ![64]⟩ : Shape).Idx → EReal)
    (wa1 : (⟨2, ![64, 1]⟩ : Shape).Idx → EReal) (ba1 : (⟨1, ![1]⟩ : Shape).Idx → EReal) : Fin 64 → EReal :=
  fun j => edge x we0 be0 we1 be1 we2 be2 we3 be3 j * Ideal.logistic (score x wa0 ba0 wa1 ba1)

/-- Every point's contribution: row r of the result is the row function of row r of X. -/
def pointArr {n : Nat} (X : (⟨2, ![n, 11]⟩ : Shape).Idx → EReal)
    (we0 : (⟨2, ![11, 8]⟩ : Shape).Idx → EReal) (be0 : (⟨1, ![8]⟩ : Shape).Idx → EReal)
    (we1 : (⟨2, ![8, 16]⟩ : Shape).Idx → EReal) (be1 : (⟨1, ![16]⟩ : Shape).Idx → EReal)
    (we2 : (⟨2, ![16, 32]⟩ : Shape).Idx → EReal) (be2 : (⟨1, ![32]⟩ : Shape).Idx → EReal)
    (we3 : (⟨2, ![32, 64]⟩ : Shape).Idx → EReal) (be3 : (⟨1, ![64]⟩ : Shape).Idx → EReal)
    (wa0 : (⟨2, ![11, 64]⟩ : Shape).Idx → EReal) (ba0 : (⟨1, ![64]⟩ : Shape).Idx → EReal)
    (wa1 : (⟨2, ![64, 1]⟩ : Shape).Idx → EReal) (ba1 : (⟨1, ![1]⟩ : Shape).Idx → EReal) :
    (⟨2, ![n, 64]⟩ : Shape).Idx → EReal :=
  fun i => pointRow (row X (i 0)) we0 be0 we1 be1 we2 be2 we3 be3 wa0 ba0 wa1 ba1 (i 1)

/-- A cluster's output: two clamped dense layers. -/
def clusterRow (a : Fin 64 → EReal)
    (wo0 : (⟨2, ![64, 128]⟩ : Shape).Idx → EReal) (bo0 : (⟨1, ![128]⟩ : Shape).Idx → EReal)
    (wo1 : (⟨2, ![128, 256]⟩ : Shape).Idx → EReal) (bo1 : (⟨1, ![256]⟩ : Shape).Idx → EReal) : Fin 256 → EReal :=
  layer floor0 (layer floor0 a wo0 bo0) wo1 bo1

/-- Every cluster's output: row r of the result is the row function of row r of A. -/
def clusterArr {n : Nat} (A : (⟨2, ![n, 64]⟩ : Shape).Idx → EReal)
    (wo0 : (⟨2, ![64, 128]⟩ : Shape).Idx → EReal) (bo0 : (⟨1, ![128]⟩ : Shape).Idx → EReal)
    (wo1 : (⟨2, ![128, 256]⟩ : Shape).Idx → EReal) (bo1 : (⟨1, ![256]⟩ : Shape).Idx → EReal) :
    (⟨2, ![n, 256]⟩ : Shape).Idx → EReal :=
  fun i => clusterRow (row A (i 0)) wo0 bo0 wo1 bo1 (i 1)

/-- An array of rows read at (r, j). -/
theorem pointArr_apply {n : Nat} (X : (⟨2, ![n, 11]⟩ : Shape).Idx → EReal)
    (we0 : (⟨2, ![11, 8]⟩ : Shape).Idx → EReal) (be0 : (⟨1, ![8]⟩ : Shape).Idx → EReal)
    (we1 : (⟨2, ![8, 16]⟩ : Shape).Idx → EReal) (be1 : (⟨1, ![16]⟩ : Shape).Idx → EReal)
    (we2 : (⟨2, ![16, 32]⟩ : Shape).Idx → EReal) (be2 : (⟨1, ![32]⟩ : Shape).Idx → EReal)
    (we3 : (⟨2, ![32, 64]⟩ : Shape).Idx → EReal) (be3 : (⟨1, ![64]⟩ : Shape).Idx → EReal)
    (wa0 : (⟨2, ![11, 64]⟩ : Shape).Idx → EReal) (ba0 : (⟨1, ![64]⟩ : Shape).Idx → EReal)
    (wa1 : (⟨2, ![64, 1]⟩ : Shape).Idx → EReal) (ba1 : (⟨1, ![1]⟩ : Shape).Idx → EReal) (r : Fin n) (j : Fin 64) :
    pointArr X we0 be0 we1 be1 we2 be2 we3 be3 wa0 ba0 wa1 ba1 (ix2 r j)
      = pointRow (row X r) we0 be0 we1 be1 we2 be2 we3 be3 wa0 ba0 wa1 ba1 j := rfl

theorem clusterArr_apply {n : Nat} (A : (⟨2, ![n, 64]⟩ : Shape).Idx → EReal)
    (wo0 : (⟨2, ![64, 128]⟩ : Shape).Idx → EReal) (bo0 : (⟨1, ![128]⟩ : Shape).Idx → EReal)
    (wo1 : (⟨2, ![128, 256]⟩ : Shape).Idx → EReal) (bo1 : (⟨1, ![256]⟩ : Shape).Idx → EReal) (r : Fin n) (j : Fin 256) :
    clusterArr A wo0 bo0 wo1 bo1 (ix2 r j) = clusterRow (row A r) wo0 bo0 wo1 bo1 j := rfl

end Cert.PointCluster

end
-- ==== Proof.Body.lean ====
/-
  The two kernel bodies, one row at a time.

  Each body loads a block of rows and the whole weight arrays, and stores one block of rows. Row p of what the first
  body stores is the point row function of row p of its input block; row p of what the second body stores is the
  cluster row function of row p of its input block. The dense layers are read through the general layer lemmas; the
  attention score is a lane sum of the clamped layer's row times the one weight column laid along the lanes, plus
  the one bias entry; the logistic of that column is spread over the 64 lanes and multiplies the edge row.
-/
import Idealize.ShloMosaic.Lib.ValueIdx
import Idealize.ShloMosaic.Lib.ValueLayout
import Idealize.ShloMosaic.Lib.Pipeline.Value
import Idealize.ShloMosaic.PureOps.Ideal.Laws
import proofs.«172056_j46961172414970_2_alg».proof.Proof.Gen.KernelIdeal.Skeleton
import proofs.«172056_j46961172414970_2_alg».proof.Proof.LibDenseRows
import proofs.«172056_j46961172414970_2_alg».proof.Proof.LibRowOps
import proofs.«172056_j46961172414970_2_alg».proof.Proof.Spec

noncomputable section

open scoped BigOperators

namespace Cert.PointCluster.Body

open Idealize.ShloMosaic Idealize.ShloMosaic.ValueIdx Idealize.ShloMosaic.DenseRows Cert.KernelIdeal Cert.KernelIdeal.Gen
  Cert.PointCluster

/-- A column [n, 1] laid flat as a vector of n entries: entry k is the column's entry (k, 0). -/
theorem flatCol_apply {α : Type} {n : Nat} (v : (⟨2, ![n, 1]⟩ : Shape).Idx → α)
    (h : (⟨2, ![n, 1]⟩ : Shape).ShapeCasts ⟨1, ![n]⟩) (k : Fin n) :
    shapeCast ⟨1, ![n]⟩ v h (ix1 k) = v (ix2 k (0 : Fin 1)) :=
  shapeCast_apply v h (ix1 k) (ix2 k (0 : Fin 1)) (by
    rw [Shape.rowMajor_val_one, Shape.rowMajor_val_two]; show k.val * 1 + 0 = k.val; omega)

/-- The first three edge layers and the fourth product, on row p of the block. -/
theorem edge_part (x0 : Vec Ideal S16000x11 .bf16) (x1 : Vec Ideal S11x8 .f32) (x2 : Vec Ideal S8 .f32) (x3 : Vec Ideal S8x16 .f32)
    (x4 : Vec Ideal S16 .f32) (x5 : Vec Ideal S16x32 .f32) (x6 : Vec Ideal S32 .f32) (x7 : Vec Ideal S32x64 .f32) (p : Fin 16000) :
    row (k0_pay3 (F := Ideal) x0 x1 x2 x3 x4 x5 x6 x7) p
      = rowDot (layer floor0 (layer floor0 (layer floor0 (row x0 p) x1 x2) x3 x4) x5 x6) x7 := by
  unfold k0_pay3 k0_pay2
  dsimp only
  rw [row_matmul dot_S16000x32_S32x64_S16000x64_1_0_0_1_n_n rfl, row_truncf, vector_row dot_S16000x16_S16x32_S16000x32_1_0_0_1_n_n rfl, row_truncf,
    vector_row dot_S16000x8_S8x16_S16000x16_1_0_0_1_n_n rfl, row_truncf, vector_row dot_S16000x11_S11x8_S16000x8_1_0_0_1_n_n rfl, shapeCast_self]
  rfl

/-- The stored value at (p, j): the clamped fourth layer's entry times the logistic of the row's score. -/
theorem pay1_apply (v1 : FVec Ideal S16000x11 .bf16) (v35 v37 : FVec Ideal S16000x64 .f32) (v41 : Vec Ideal S11x64 .f32)
    (v43 : Vec Ideal S64 .f32) (v50 : Vec Ideal S64x1 .f32) (v57 : Vec Ideal S1 .f32) (p : Fin 16000) (j : Fin 64) :
    k0_pay1 (F := Ideal) v1 v35 v37 v41 v43 v50 v57 (ix2 p j)
      = max (v35 (ix2 p j) + v37 (ix2 p j)) floor0
        * Ideal.logistic ((∑ k : Fin 64, layer floor0 (row v1 p) v41 v43 k * v50 (ix2 k (0 : Fin 1))) + v57 (ix1 (0 : Fin 1))) := by
  unfold k0_pay1
  dsimp only
  rw [truncf_apply, mulf_apply, maximumf_apply, addf_apply, broadcast_apply, RowOps.colBcast_apply]
  refine congrArg (fun s => max (v35 (ix2 p j) + v37 (ix2 p j)) floor0 * Ideal.logistic s) ?_
  rw [addf_apply, RowOps.colCast_apply]
  refine congrArg₂ (· + ·) ((RowOps.rowSum_vector _ _ _ _ _ p).trans (Finset.sum_congr rfl fun k _ => ?_))
    (AffineRow.biasRows_apply v57 shapeCasts_S1_S1x1 broadcasts_S1x1_S16000x1 p (0 : Fin 1))
  rw [mulf_apply, AffineRow.biasRows_apply, flatCol_apply]
  exact congrArg (· * v50 (ix2 k (0 : Fin 1)))
    (congrFun (vector_row dot_S16000x11_S11x64_S16000x64_1_0_0_1_n_n rfl none v1 v41 bitsLt_bf16_f32 v43 shapeCasts_S64_S1x64
      broadcasts_S1x64_S16000x64 (FloatOps.ofBits .f32 0x00000000#32) p) k)

/-- Row p of what the first body stores is the point row function of row p of its input block. -/
theorem point_row (x0 : Vec Ideal S16000x11 .bf16) (x1 : Vec Ideal S11x8 .f32) (x2 : Vec Ideal S8 .f32) (x3 : Vec Ideal S8x16 .f32)
    (x4 : Vec Ideal S16 .f32) (x5 : Vec Ideal S16x32 .f32) (x6 : Vec Ideal S32 .f32) (x7 : Vec Ideal S32x64 .f32)
    (x8 : Vec Ideal S64 .f32) (x9 : Vec Ideal S11x64 .f32) (x10 : Vec Ideal S64 .f32) (x11 : Vec Ideal S64x1 .f32)
    (x12 : Vec Ideal S1 .f32) (p : Fin 16000) :
    row (k0_pay1 (F := Ideal) (k0_pay2 x0) (k0_pay3 x0 x1 x2 x3 x4 x5 x6 x7) (k0_pay4 x8) x9 x10 x11 x12) p
      = pointRow (row x0 p) x1 x2 x3 x4 x5 x6 x7 x8 x9 x10 x11 x12 := by
  funext j
  show k0_pay1 (F := Ideal) (k0_pay2 x0) (k0_pay3 x0 x1 x2 x3 x4 x5 x6 x7) (k0_pay4 x8) x9 x10 x11 x12 (ix2 p j) = _
  rw [pay1_apply]
  have hb : k0_pay4 (F := Ideal) x8 (ix2 p j) = x8 (ix1 j) := AffineRow.biasRows_apply x8 shapeCasts_S64_S1x64 broadcasts_S1x64_S16000x64 p j
  have he : k0_pay3 (F := Ideal) x0 x1 x2 x3 x4 x5 x6 x7 (ix2 p j)
      = rowDot (layer floor0 (layer floor0 (layer floor0 (row x0 p) x1 x2) x3 x4) x5 x6) x7 j :=
    congrFun (edge_part x0 x1 x2 x3 x4 x5 x6 x7 p) j
  have h0 : row (k0_pay2 (F := Ideal) x0) p = row x0 p := by unfold k0_pay2; dsimp only; rw [shapeCast_self]
  rw [hb, he, h0]
  rfl

/-- Row p of what the second body stores is the cluster row function of row p of its input block. -/
theorem cluster_row (x0 : Vec Ideal S4096x64 .f32) (x1 : Vec Ideal S64x128 .f32) (x2 : Vec Ideal S128 .f32)
    (x3 : Vec Ideal S128x256 .f32) (x4 : Vec Ideal S256 .f32) (p : Fin 4096) :
    row (k1_pay1 (F := Ideal) x0 x1 x2 x3 x4) p = clusterRow (row x0 p) x1 x2 x3 x4 := by
  unfold k1_pay1
  dsimp only
  rw [vector_row dot_S4096x128_S128x256_S4096x256_1_0_0_1_n_n rfl, row_truncf, vector_row dot_S4096x64_S64x128_S4096x128_1_0_0_1_n_n rfl,
    row_truncf, shapeCast_self]
  rfl

end Cert.PointCluster.Body

end
-- ==== Proof.Regions.lean ====
/-
  From blocks to arrays: what each of the two grids leaves in its output array.

  The first grid has 125 points; point t reads rows 16000·t … 16000·t + 15999 of the 2000000 × 11 input through its
  first window and the whole of every weight array through the others, and writes back rows 16000·t … of the
  2000000 × 64 output. So the output array ends as the point row function applied to every row of the input. The
  second grid has 16 points of 4096 rows each over 65536 clusters, with the cluster row function. Both facts are
  stated at any contents of the buffers at the region's entry.
-/
import proofs.«172056_j46961172414970_2_alg».proof.Proof.Gen.KernelIdeal.Frame
import proofs.«172056_j46961172414970_2_alg».proof.Proof.Body
import Idealize.ShloMosaic.Lib.Pipeline.Value
import Idealize.ShloMosaic.Lib.ValueIdx

set_option maxRecDepth 16384

noncomputable section

open scoped BigOperators

namespace Cert.PointCluster.Regions

open Idealize.ShloMosaic Idealize.ShloMosaic.TcCoe Idealize.ShloMosaic.ValueIdx Idealize.ShloMosaic.DenseRows
open Idealize.SL.Sem
open Cert.KernelIdeal Cert.KernelIdeal.Gen Cert.PointCluster
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-! ## The first grid -/

/-- The row-block windows (input 0, output 13) sit at block (t, 0). -/
theorem moving_index0 : ∀ t : Fin cfg0.N, win0_0.index t (0 : Fin 2) = t.val ∧ win0_0.index t (1 : Fin 2) = 0
    ∧ win0_13.index t (0 : Fin 2) = t.val ∧ win0_13.index t (1 : Fin 2) = 0 :=
  (by decide +kernel : ∀ t : Fin grid0.N, _)

/-- Every weight window sits at block 0 on every axis. -/
theorem const_index0 : ∀ t : Fin cfg0.N, win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0
    ∧ win0_12.index t (0 : Fin 1) = 0 :=
  (by decide +kernel : ∀ t : Fin grid0.N, _)

/-- Window 1 of region 0 holds the whole of its array at every point. -/
theorem whole0_1 (c : Dev nD) (t : Fin cfg0.N) : iblk0 V c 1 t = V c main_arg4 := by
  funext y
  show V c main_arg4 (((cfg0.win 1).blk t).view.emb y) = V c main_arg4 y
  refine congrArg (V c main_arg4) (funext fun a => Fin.ext ?_)
  obtain ⟨e1_0, e1_1, e2_0, e3_0, e3_1, e4_0, e5_0, e5_1, e6_0, e7_0, e7_1, e8_0, e9_0, e9_1, e10_0, e11_0, e11_1, e12_0⟩ := const_index0 t
  match a with
  | ⟨0, _⟩ => show win0_1.index t (0 : Fin 2) * 11 + 1 * (y 0).val = (y 0).val; omega
  | ⟨1, _⟩ => show win0_1.index t (1 : Fin 2) * 8 + 1 * (y 1).val = (y 1).val; omega

/-- Window 2 of region 0 holds the whole of its array at every point. -/
theorem whole0_2 (c : Dev nD) (t : Fin cfg0.N) : iblk0 V c 2 t = V c main_arg5 := by
  funext y
  show V c main_arg5 (((cfg0.win 2).blk t).view.emb y) = V c main_arg5 y
  refine congrArg (V c main_arg5) (funext fun a => Fin.ext ?_)
  obtain ⟨e1_0, e1_1, e2_0, e3_0, e3_1, e4_0, e5_0, e5_1, e6_0, e7_0, e7_1, e8_0, e9_0, e9_1, e10_0, e11_0, e11_1, e12_0⟩ := const_index0 t
  match a with
  | ⟨0, _⟩ => show win0_2.index t (0 : Fin 1) * 8 + 1 * (y 0).val = (y 0).val; omega

/-- Window 3 of region 0 holds the whole of its array at every point. -/
theorem whole0_3 (c : Dev nD) (t : Fin cfg0.N) : iblk0 V c 3 t = V c main_arg6 := by
  funext y
  show V c main_arg6 (((cfg0.win 3).blk t).view.emb y) = V c main_arg6 y
  refine congrArg (V c main_arg6) (funext fun a => Fin.ext ?_)
  obtain ⟨e1_0, e1_1, e2_0, e3_0, e3_1, e4_0, e5_0, e5_1, e6_0, e7_0, e7_1, e8_0, e9_0, e9_1, e10_0, e11_0, e11_1, e12_0⟩ := const_index0 t
  match a with
  | ⟨0, _⟩ => show win0_3.index t (0 : Fin 2) * 8 + 1 * (y 0).val = (y 0).val; omega
  | ⟨1, _⟩ => show win0_3.index t (1 : Fin 2) * 16 + 1 * (y 1).val = (y 1).val; omega

/-- Window 4 of region 0 holds the whole of its array at every point. -/
theorem whole0_4 (c : Dev nD) (t : Fin cfg0.N) : iblk0 V c 4 t = V c main_arg7 := by
  funext y
  show V c main_arg7 (((cfg0.win 4).blk t).view.emb y) = V c main_arg7 y
  refine congrArg (V c main_arg7) (funext fun a => Fin.ext ?_)
  obtain ⟨e1_0, e1_1, e2_0, e3_0, e3_1, e4_0, e5_0, e5_1, e6_0, e7_0, e7_1, e8_0, e9_0, e9_1, e10_0, e11_0, e11_1, e12_0⟩ := const_index0 t
  match a with
  | ⟨0, _⟩ => show win0_4.index t (0 : Fin 1) * 16 + 1 * (y 0).val = (y 0).val; omega

/-- Window 5 of region 0 holds the whole of its array at every point. -/
theorem whole0_5 (c : Dev nD) (t : Fin cfg0.N) : iblk0 V c 5 t = V c main_arg8 := by
  funext y
  show V c main_arg8 (((cfg0.win 5).blk t).view.emb y) = V c main_arg8 y
  refine congrArg (V c main_arg8) (funext fun a => Fin.ext ?_)
  obtain ⟨e1_0, e1_1, e2_0, e3_0, e3_1, e4_0, e5_0, e5_1, e6_0, e7_0, e7_1, e8_0, e9_0, e9_1, e10_0, e11_0, e11_1, e12_0⟩ := const_index0 t
  match a with
  | ⟨0, _⟩ => show win0_5.index t (0 : Fin 2) * 16 + 1 * (y 0).val = (y 0).val; omega
  | ⟨1, _⟩ => show win0_5.index t (1 : Fin 2) * 32 + 1 * (y 1).val = (y 1).val; omega

/-- Window 6 of region 0 holds the whole of its array at every point. -/
theorem whole0_6 (c : Dev nD) (t : Fin cfg0.N) : iblk0 V c 6 t = V c main_arg9 := by
  funext y
  show V c main_arg9 (((cfg0.win 6).blk t).view.emb y) = V c main_arg9 y
  refine congrArg (V c main_arg9) (funext fun a => Fin.ext ?_)
  obtain ⟨e1_0, e1_1, e2_0, e3_0, e3_1, e4_0, e5_0, e5_1, e6_0, e7_0, e7_1, e8_0, e9_0, e9_1, e10_0, e11_0, e11_1, e12_0⟩ := const_index0 t
  match a with
  | ⟨0, _⟩ => show win0_6.index t (0 : Fin 1) * 32 + 1 * (y 0).val = (y 0).val; omega

/-- Window 7 of region 0 holds the whole of its array at every point. -/
theorem whole0_7 (c : Dev nD) (t : Fin cfg0.N) : iblk0 V c 7 t = V c main_arg10 := by
  funext y
  show V c main_arg10 (((cfg0.win 7).blk t).view.emb y) = V c main_arg10 y
  refine congrArg (V c main_arg10) (funext fun a => Fin.ext ?_)
  obtain ⟨e1_0, e1_1, e2_0, e3_0, e3_1, e4_0, e5_0, e5_1, e6_0, e7_0, e7_1, e8_0, e9_0, e9_1, e10_0, e11_0, e11_1, e12_0⟩ := const_index0 t
  match a with
  | ⟨0, _⟩ => show win0_7.index t (0 : Fin 2) * 32 + 1 * (y 0).val = (y 0).val; omega
  | ⟨1, _⟩ => show win0_7.index t (1 : Fin 2) * 64 + 1 * (y 1).val = (y 1).val; omega

/-- Window 8 of region 0 holds the whole of its array at every point. -/
theorem whole0_8 (c : Dev nD) (t : Fin cfg0.N) : iblk0 V c 8 t = V c main_arg11 := by
  funext y
  show V c main_arg11 (((cfg0.win 8).blk t).view.emb y) = V c main_arg11 y
  refine congrArg (V c main_arg11) (funext fun a => Fin.ext ?_)
  obtain ⟨e1_0, e1_1, e2_0, e3_0, e3_1, e4_0, e5_0, e5_1, e6_0, e7_0, e7_1, e8_0, e9_0, e9_1, e10_0, e11_0, e11_1, e12_0⟩ := const_index0 t
  match a with
  | ⟨0, _⟩ => show win0_8.index t (0 : Fin 1) * 64 + 1 * (y 0).val = (y 0).val; omega

/-- Window 9 of region 0 holds the whole of its array at every point. -/
theorem whole0_9 (c : Dev nD) (t : Fin cfg0.N) : iblk0 V c 9 t = V c main_arg12 := by
  funext y
  show V c main_arg12 (((cfg0.win 9).blk t).view.emb y) = V c main_arg12 y
  refine congrArg (V c main_arg12) (funext fun a => Fin.ext ?_)
  obtain ⟨e1_0, e1_1, e2_0, e3_0, e3_1, e4_0, e5_0, e5_1, e6_0, e7_0, e7_1, e8_0, e9_0, e9_1, e10_0, e11_0, e11_1, e12_0⟩ := const_index0 t
  match a with
  | ⟨0, _⟩ => show win0_9.index t (0 : Fin 2) * 11 + 1 * (y 0).val = (y 0).val; omega
  | ⟨1, _⟩ => show win0_9.index t (1 : Fin 2) * 64 + 1 * (y 1).val = (y 1).val; omega

/-- Window 10 of region 0 holds the whole of its array at every point. -/
theorem whole0_10 (c : Dev nD) (t : Fin cfg0.N) : iblk0 V c 10 t = V c main_arg13 := by
  funext y
  show V c main_arg13 (((cfg0.win 10).blk t).view.emb y) = V c main_arg13 y
  refine congrArg (V c main_arg13) (funext fun a => Fin.ext ?_)
  obtain ⟨e1_0, e1_1, e2_0, e3_0, e3_1, e4_0, e5_0, e5_1, e6_0, e7_0, e7_1, e8_0, e9_0, e9_1, e10_0, e11_0, e11_1, e12_0⟩ := const_index0 t
  match a with
  | ⟨0, _⟩ => show win0_10.index t (0 : Fin 1) * 64 + 1 * (y 0).val = (y 0).val; omega

/-- Window 11 of region 0 holds the whole of its array at every point. -/
theorem whole0_11 (c : Dev nD) (t : Fin cfg0.N) : iblk0 V c 11 t = V c main_arg14 := by
  funext y
  show V c main_arg14 (((cfg0.win 11).blk t).view.emb y) = V c main_arg14 y
  refine congrArg (V c main_arg14) (funext fun a => Fin.ext ?_)
  obtain ⟨e1_0, e1_1, e2_0, e3_0, e3_1, e4_0, e5_0, e5_1, e6_0, e7_0, e7_1, e8_0, e9_0, e9_1, e10_0, e11_0, e11_1, e12_0⟩ := const_index0 t
  match a with
  | ⟨0, _⟩ => show win0_11.index t (0 : Fin 2) * 64 + 1 * (y 0).val = (y 0).val; omega
  | ⟨1, _⟩ => show win0_11.index t (1 : Fin 2) * 1 + 1 * (y 1).val = (y 1).val; omega

/-- Window 12 of region 0 holds the whole of its array at every point. -/
theorem whole0_12 (c : Dev nD) (t : Fin cfg0.N) : iblk0 V c 12 t = V c main_arg15 := by
  funext y
  show V c main_arg15 (((cfg0.win 12).blk t).view.emb y) = V c main_arg15 y
  refine congrArg (V c main_arg15) (funext fun a => Fin.ext ?_)
  obtain ⟨e1_0, e1_1, e2_0, e3_0, e3_1, e4_0, e5_0, e5_1, e6_0, e7_0, e7_1, e8_0, e9_0, e9_1, e10_0, e11_0, e11_1, e12_0⟩ := const_index0 t
  match a with
  | ⟨0, _⟩ => show win0_12.index t (0 : Fin 1) * 1 + 1 * (y 0).val = (y 0).val; omega

/-- Row p of the input block at point t is row 16000·t + p of the input array. -/
theorem rows0 (c : Dev nD) (t : Fin cfg0.N) (p : Fin 16000) (k : Fin 11) (h : t.val * 16000 + p.val < 2000000) :
    iblk0 V c 0 t (ix2 p k) = V c main_v9 (ix2 (⟨t.val * 16000 + p.val, h⟩ : Fin 2000000) k) := by
  show V c main_v9 (((cfg0.win 0).blk t).view.emb (ix2 p k)) = _
  refine congrArg (V c main_v9) (funext fun a => Fin.ext ?_)
  obtain ⟨e0, e1, -, -⟩ := moving_index0 t
  match a with
  | ⟨0, _⟩ => show win0_0.index t (0 : Fin 2) * 16000 + 1 * p.val = t.val * 16000 + p.val; omega
  | ⟨1, _⟩ => show win0_0.index t (1 : Fin 2) * 11 + 1 * k.val = k.val; omega

/-- The 2000000 × 64 array of point contributions, from the buffers as the first region finds them. -/
def points (c : Dev nD) : S2000000x64.Idx → EReal :=
  pointArr (n := 2000000) (V c main_v9) (V c main_arg4) (V c main_arg5) (V c main_arg6) (V c main_arg7) (V c main_arg8) (V c main_arg9)
    (V c main_arg10) (V c main_arg11) (V c main_arg12) (V c main_arg13) (V c main_arg14) (V c main_arg15)

theorem grid0_size : grid0.N = 125 := Gen.N_0

/-- What point t writes back is block t of the array of point contributions. -/
theorem flushed0 (c : Dev nD) (t : Fin cfg0.N) :
    (dat0 V c).flushed 13 t = ((cfg0.win 13).blk t).view.read (Elt Ideal) (points V c) := by
  show (cfg0.win 13).cut (grid0.coords t) ((dat0 V c).after 13 t) = _
  rw [after0_13]
  unfold out0_13
  rw [View.canon_unit_zero zero2]
  simp only [View.ld_unit_zero (S := S16000x11) zero2, View.ld_unit_zero (S := S11x8) zero2, View.ld_unit_zero (S := S8) zero1,
    View.ld_unit_zero (S := S8x16) zero2, View.ld_unit_zero (S := S16) zero1, View.ld_unit_zero (S := S16x32) zero2,
    View.ld_unit_zero (S := S32) zero1, View.ld_unit_zero (S := S32x64) zero2, View.ld_unit_zero (S := S64) zero1,
    View.ld_unit_zero (S := S11x64) zero2, View.ld_unit_zero (S := S64x1) zero2, View.ld_unit_zero (S := S1) zero1]
  rw [whole0_1, whole0_2, whole0_3, whole0_4, whole0_5, whole0_6, whole0_7, whole0_8, whole0_9, whole0_10, whole0_11, whole0_12]
  refine funext fun (y : S16000x64.Idx) => ?_
  obtain ⟨p, j, rfl⟩ : ∃ (p : Fin 16000) (j : Fin 64), y = ix2 p j := ⟨y 0, y 1, eq_ix2 y⟩
  have ht : t.val < 125 := grid0_size ▸ t.isLt
  have hr : t.val * 16000 + p.val < 2000000 := by have := p.isLt; omega
  obtain ⟨-, -, e2, e3⟩ := moving_index0 t
  have he : ((cfg0.win 13).blk t).view.emb (ix2 p j) = ix2 (⟨t.val * 16000 + p.val, hr⟩ : Fin 2000000) j :=
    funext fun a => Fin.ext (by
      match a with
      | ⟨0, _⟩ => show win0_13.index t (0 : Fin 2) * 16000 + 1 * p.val = t.val * 16000 + p.val; omega
      | ⟨1, _⟩ => show win0_13.index t (1 : Fin 2) * 64 + 1 * j.val = j.val; omega)
  show _ = points V c (((cfg0.win 13).blk t).view.emb (ix2 p j))
  rw [he]
  refine (congrFun (Body.point_row (iblk0 V c 0 t) (V c main_arg4) (V c main_arg5) (V c main_arg6) (V c main_arg7) (V c main_arg8)
    (V c main_arg9) (V c main_arg10) (V c main_arg11) (V c main_arg12) (V c main_arg13) (V c main_arg14) (V c main_arg15) p) j).trans ?_
  show _ = pointRow (row (V c main_v9) (⟨t.val * 16000 + p.val, hr⟩ : Fin 2000000)) _ _ _ _ _ _ _ _ _ _ _ _ j
  refine congrArg (fun x => pointRow x (V c main_arg4) (V c main_arg5) (V c main_arg6) (V c main_arg7) (V c main_arg8)
    (V c main_arg9) (V c main_arg10) (V c main_arg11) (V c main_arg12) (V c main_arg13) (V c main_arg14) (V c main_arg15) j) ?_
  exact funext fun k => rows0 V c t p k hr

/-- An index of the output array is in point t's block iff each coordinate is in the block's range on its axis. -/
theorem mem_block0 (t : Fin cfg0.N) (i : S2000000x64.Idx) :
    i ∈ ((cfg0.win 13).blk t).view.set ↔ ∀ a : Fin 2, win0_13.index t a * S16000x64.size a ≤ (i a).val
      ∧ (i a).val < win0_13.index t a * S16000x64.size a + S16000x64.size a := by
  show i ∈ ((View.whole main_v10).slice (win0_13.rect t)).set ↔ _
  rw [View.set_slice_whole, Rect.mem_set_unit]
  exact Iff.rfl

/-- Every row of the output is in some point's block: row r in point r / 16000's. -/
theorem cover0 (i : S2000000x64.Idx) : ∃ t : Fin cfg0.N, (cfg0.win 13).flush t = true ∧ i ∈ ((cfg0.win 13).blk t).view.set := by
  have hi0 : (i 0).val < 2000000 := (i 0).isLt
  have hi1 : (i 1).val < 64 := (i 1).isLt
  have hN : grid0.N = 125 := grid0_size
  let t : Fin cfg0.N := ⟨(i 0).val / 16000, by show (i 0).val / 16000 < grid0.N; omega⟩
  refine ⟨t, flush0_13 t, ?_⟩
  rw [mem_block0]
  obtain ⟨-, -, e2, e3⟩ := moving_index0 t
  have htv : t.val = (i 0).val / 16000 := rfl
  intro a
  match a with
  | ⟨0, _⟩ => show win0_13.index t (0 : Fin 2) * 16000 ≤ (i 0).val ∧ (i 0).val < win0_13.index t (0 : Fin 2) * 16000 + 16000; omega
  | ⟨1, _⟩ => show win0_13.index t (1 : Fin 2) * 64 ≤ (i 1).val ∧ (i 1).val < win0_13.index t (1 : Fin 2) * 64 + 64; omega

/-- After the first region its output array holds every point's contribution. -/
theorem final0 (c : Dev nD) : (dat0 V c).arrAt 13 cfg0.N = points V c :=
  (dat0 V c).arrAt_eq_of_cover 13 (points V c) (fun t _ => flushed0 V c t) cover0

/-! ## The second grid -/

theorem moving_index1 : ∀ t : Fin cfg1.N, win1_0.index t (0 : Fin 2) = t.val ∧ win1_0.index t (1 : Fin 2) = 0
    ∧ win1_5.index t (0 : Fin 2) = t.val ∧ win1_5.index t (1 : Fin 2) = 0 :=
  (by decide +kernel : ∀ t : Fin grid1.N, _)

theorem const_index1 : ∀ t : Fin cfg1.N, win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0 :=
  (by decide +kernel : ∀ t : Fin grid1.N, _)

/-- Window 1 of region 1 holds the whole of its array at every point. -/
theorem whole1_1 (c : Dev nD) (t : Fin cfg1.N) : iblk1 V c 1 t = V c main_arg16 := by
  funext y
  show V c main_arg16 (((cfg1.win 1).blk t).view.emb y) = V c main_arg16 y
  refine congrArg (V c main_arg16) (funext fun a => Fin.ext ?_)
  obtain ⟨e1_0, e1_1, e2_0, e3_0, e3_1, e4_0⟩ := const_index1 t
  match a with
  | ⟨0, _⟩ => show win1_1.index t (0 : Fin 2) * 64 + 1 * (y 0).val = (y 0).val; omega
  | ⟨1, _⟩ => show win1_1.index t (1 : Fin 2) * 128 + 1 * (y 1).val = (y 1).val; omega

/-- Window 2 of region 1 holds the whole of its array at every point. -/
theorem whole1_2 (c : Dev nD) (t : Fin cfg1.N) : iblk1 V c 2 t = V c main_arg17 := by
  funext y
  show V c main_arg17 (((cfg1.win 2).blk t).view.emb y) = V c main_arg17 y
  refine congrArg (V c main_arg17) (funext fun a => Fin.ext ?_)
  obtain ⟨e1_0, e1_1, e2_0, e3_0, e3_1, e4_0⟩ := const_index1 t
  match a with
  | ⟨0, _⟩ => show win1_2.index t (0 : Fin 1) * 128 + 1 * (y 0).val = (y 0).val; omega

/-- Window 3 of region 1 holds the whole of its array at every point. -/
theorem whole1_3 (c : Dev nD) (t : Fin cfg1.N) : iblk1 V c 3 t = V c main_arg18 := by
  funext y
  show V c main_arg18 (((cfg1.win 3).blk t).view.emb y) = V c main_arg18 y
  refine congrArg (V c main_arg18) (funext fun a => Fin.ext ?_)
  obtain ⟨e1_0, e1_1, e2_0, e3_0, e3_1, e4_0⟩ := const_index1 t
  match a with
  | ⟨0, _⟩ => show win1_3.index t (0 : Fin 2) * 128 + 1 * (y 0).val = (y 0).val; omega
  | ⟨1, _⟩ => show win1_3.index t (1 : Fin 2) * 256 + 1 * (y 1).val = (y 1).val; omega

/-- Window 4 of region 1 holds the whole of its array at every point. -/
theorem whole1_4 (c : Dev nD) (t : Fin cfg1.N) : iblk1 V c 4 t = V c main_arg19 := by
  funext y
  show V c main_arg19 (((cfg1.win 4).blk t).view.emb y) = V c main_arg19 y
  refine congrArg (V c main_arg19) (funext fun a => Fin.ext ?_)
  obtain ⟨e1_0, e1_1, e2_0, e3_0, e3_1, e4_0⟩ := const_index1 t
  match a with
  | ⟨0, _⟩ => show win1_4.index t (0 : Fin 1) * 256 + 1 * (y 0).val = (y 0).val; omega

/-- Row p of the input block at point t is row 4096·t + p of the cluster sums. -/
theorem rows1 (c : Dev nD) (t : Fin cfg1.N) (p : Fin 4096) (k : Fin 64) (h : t.val * 4096 + p.val < 65536) :
    iblk1 V c 0 t (ix2 p k) = V c main_v14 (ix2 (⟨t.val * 4096 + p.val, h⟩ : Fin 65536) k) := by
  show V c main_v14 (((cfg1.win 0).blk t).view.emb (ix2 p k)) = _
  refine congrArg (V c main_v14) (funext fun a => Fin.ext ?_)
  obtain ⟨e0, e1, -, -⟩ := moving_index1 t
  match a with
  | ⟨0, _⟩ => show win1_0.index t (0 : Fin 2) * 4096 + 1 * p.val = t.val * 4096 + p.val; omega
  | ⟨1, _⟩ => show win1_0.index t (1 : Fin 2) * 64 + 1 * k.val = k.val; omega

/-- The 65536 × 256 array of cluster outputs, from the buffers as the second region finds them. -/
def clusters (c : Dev nD) : S65536x256.Idx → EReal :=
  clusterArr (n := 65536) (V c main_v14) (V c main_arg16) (V c main_arg17) (V c main_arg18) (V c main_arg19)

theorem grid1_size : grid1.N = 16 := Gen.N_1

/-- What point t writes back is block t of the array of cluster outputs. -/
theorem flushed1 (c : Dev nD) (t : Fin cfg1.N) :
    (dat1 V c).flushed 5 t = ((cfg1.win 5).blk t).view.read (Elt Ideal) (clusters V c) := by
  show (cfg1.win 5).cut (grid1.coords t) ((dat1 V c).after 5 t) = _
  rw [after1_5]
  unfold out1_5
  rw [View.canon_unit_zero zero2]
  simp only [View.ld_unit_zero (S := S4096x64) zero2, View.ld_unit_zero (S := S64x128) zero2, View.ld_unit_zero (S := S128) zero1,
    View.ld_unit_zero (S := S128x256) zero2, View.ld_unit_zero (S := S256) zero1]
  rw [whole1_1, whole1_2, whole1_3, whole1_4]
  refine funext fun (y : S4096x256.Idx) => ?_
  obtain ⟨p, j, rfl⟩ : ∃ (p : Fin 4096) (j : Fin 256), y = ix2 p j := ⟨y 0, y 1, eq_ix2 y⟩
  have ht : t.val < 16 := grid1_size ▸ t.isLt
  have hr : t.val * 4096 + p.val < 65536 := by have := p.isLt; omega
  obtain ⟨-, -, e2, e3⟩ := moving_index1 t
  have he : ((cfg1.win 5).blk t).view.emb (ix2 p j) = ix2 (⟨t.val * 4096 + p.val, hr⟩ : Fin 65536) j :=
    funext fun a => Fin.ext (by
      match a with
      | ⟨0, _⟩ => show win1_5.index t (0 : Fin 2) * 4096 + 1 * p.val = t.val * 4096 + p.val; omega
      | ⟨1, _⟩ => show win1_5.index t (1 : Fin 2) * 256 + 1 * j.val = j.val; omega)
  show _ = clusters V c (((cfg1.win 5).blk t).view.emb (ix2 p j))
  rw [he]
  refine (congrFun (Body.cluster_row (iblk1 V c 0 t) (V c main_arg16) (V c main_arg17) (V c main_arg18) (V c main_arg19) p) j).trans ?_
  show _ = clusterRow (row (V c main_v14) (⟨t.val * 4096 + p.val, hr⟩ : Fin 65536)) _ _ _ _ j
  refine congrArg (fun x => clusterRow x (V c main_arg16) (V c main_arg17) (V c main_arg18) (V c main_arg19) j) ?_
  exact funext fun k => rows1 V c t p k hr

theorem mem_block1 (t : Fin cfg1.N) (i : S65536x256.Idx) :
    i ∈ ((cfg1.win 5).blk t).view.set ↔ ∀ a : Fin 2, win1_5.index t a * S4096x256.size a ≤ (i a).val
      ∧ (i a).val < win1_5.index t a * S4096x256.size a + S4096x256.size a := by
  show i ∈ ((View.whole main_v15).slice (win1_5.rect t)).set ↔ _
  rw [View.set_slice_whole, Rect.mem_set_unit]
  exact Iff.rfl

/-- Every row of the output is in some point's block: row r in point r / 4096's. -/
theorem cover1 (i : S65536x256.Idx) : ∃ t : Fin cfg1.N, (cfg1.win 5).flush t = true ∧ i ∈ ((cfg1.win 5).blk t).view.set := by
  have hi0 : (i 0).val < 65536 := (i 0).isLt
  have hi1 : (i 1).val < 256 := (i 1).isLt
  have hN : grid1.N = 16 := grid1_size
  let t : Fin cfg1.N := ⟨(i 0).val / 4096, by show (i 0).val / 4096 < grid1.N; omega⟩
  refine ⟨t, flush1_5 t, ?_⟩
  rw [mem_block1]
  obtain ⟨-, -, e2, e3⟩ := moving_index1 t
  have htv : t.val = (i 0).val / 4096 := rfl
  intro a
  match a with
  | ⟨0, _⟩ => show win1_5.index t (0 : Fin 2) * 4096 ≤ (i 0).val ∧ (i 0).val < win1_5.index t (0 : Fin 2) * 4096 + 4096; omega
  | ⟨1, _⟩ => show win1_5.index t (1 : Fin 2) * 256 ≤ (i 1).val ∧ (i 1).val < win1_5.index t (1 : Fin 2) * 256 + 256; omega

/-- After the second region its output array holds every cluster's output. -/
theorem final1 (c : Dev nD) : (dat1 V c).arrAt 5 cfg1.N = clusters V c :=
  (dat1 V c).arrAt_eq_of_cover 5 (clusters V c) (fun t _ => flushed1 V c t) cover1

end Cert.PointCluster.Regions

end
-- ==== Proof.Ref.lean ====
/-
  The reference, one row at a time.

  The reference computes every point's contribution with whole-array operations: dot products of the 2000000 × 11
  input with the weights, biases broadcast along the rows, maxima with a broadcast zero, and the logistic function
  spelled 1 / (1 + exp (−s)) with the f32 word of 1.0. Row r of its 2000000 × 64 product array is the point row
  function of row r of the input; after the scatter-add into clusters, row r of its 65536 × 256 result is the
  cluster row function of row r of the cluster sums. The word of 1.0 denotes the real 1, so the spelled quotient is
  the logistic function on every extended real.
-/
import proofs.«172056_j46961172414970_2_alg».proof.Proof.Gen.ReferenceIdeal.Read
import proofs.«172056_j46961172414970_2_alg».proof.Proof.LibDenseRows
import proofs.«172056_j46961172414970_2_alg».proof.Proof.LibRowOps
import proofs.«172056_j46961172414970_2_alg».proof.Proof.Spec
import Idealize.ShloMosaic.Lib.ValueIdx
import Idealize.ShloMosaic.PureOps.Ideal.Laws

noncomputable section

open scoped BigOperators

namespace Cert.PointCluster.Ref

open Idealize.ShloMosaic Idealize.ShloMosaic.ValueIdx Idealize.ShloMosaic.DenseRows
open Cert.ReferenceIdeal Cert.ReferenceIdeal.Gen Cert.ReferenceIdeal.Read Cert.PointCluster

/-- The f32 word of 1.0 denotes the real 1. -/
theorem word_one : Ideal.ofBits .f32 0x3F800000#32 = (1 : EReal) := by
  simp [Ideal.ofBits, Ideal.ieee, -EReal.coe_mul]; norm_num

/-- 1 / (1 + exp (−x)) with that word is the logistic function, at every extended real. -/
theorem quotient_is_logistic (x : EReal) :
    Ideal.div (Ideal.ofBits .f32 0x3F800000#32) (Ideal.ofBits .f32 0x3F800000#32 + Ideal.exp (-x)) = Ideal.logistic x := by
  rw [word_one]; rfl

/-- The reference's array of products is the point row function applied to every row of its concatenated input. -/
theorem points_eq (x0 : (⟨S2000000x8, .f32⟩ : BufTy).Contents (Elt Ideal)) (x1 : (⟨S2000000, .i32⟩ : BufTy).Contents (Elt Ideal)) (x2 : (⟨S65536x3, .f32⟩ : BufTy).Contents (Elt Ideal)) (x3 : (⟨S2000000x3, .f32⟩ : BufTy).Contents (Elt Ideal)) (x4 : (⟨S11x8, .f32⟩ : BufTy).Contents (Elt Ideal)) (x5 : (⟨S8, .f32⟩ : BufTy).Contents (Elt Ideal)) (x6 : (⟨S8x16, .f32⟩ : BufTy).Contents (Elt Ideal)) (x7 : (⟨S16, .f32⟩ : BufTy).Contents (Elt Ideal)) (x8 : (⟨S16x32, .f32⟩ : BufTy).Contents (Elt Ideal)) (x9 : (⟨S32, .f32⟩ : BufTy).Contents (Elt Ideal)) (x10 : (⟨S32x64, .f32⟩ : BufTy).Contents (Elt Ideal)) (x11 : (⟨S64, .f32⟩ : BufTy).Contents (Elt Ideal)) (x12 : (⟨S11x64, .f32⟩ : BufTy).Contents (Elt Ideal)) (x13 : (⟨S64, .f32⟩ : BufTy).Contents (Elt Ideal)) (x14 : (⟨S64x1, .f32⟩ : BufTy).Contents (Elt Ideal)) (x15 : (⟨S1, .f32⟩ : BufTy).Contents (Elt Ideal)) :
    val_main_v45 (F := Ideal) x0 x1 x2 x3 x4 x5 x6 x7 x8 x9 x10 x11 x12 x13 x14 x15
      = pointArr (n := 2000000) (val_main_v8 (F := Ideal) x0 x1 x2 x3) x4 x5 x6 x7 x8 x9 x10 x11 x12 x13 x14 x15 := by
  funext i
  obtain ⟨r, j, rfl⟩ : ∃ (r : Fin 2000000) (j : Fin 64), i = ix2 r j := ⟨i 0, i 1, eq_ix2 i⟩
  rw [pointArr_apply]
  have hedge : row (val_main_v28 (F := Ideal) x0 x1 x2 x3 x4 x5 x6 x7 x8 x9 x10 x11) r
      = edge (row (val_main_v8 (F := Ideal) x0 x1 x2 x3) r) x4 x5 x6 x7 x8 x9 x10 x11 := by
    unfold val_main_v28 val_main_v27 val_main_v26 val_main_v25 val_main_v24 val_main_call3_v0 val_main_call3_cst
      val_main_v23 val_main_v22 val_main_v21 val_main_v20 val_main_v19 val_main_call2_v0 val_main_call2_cst
      val_main_v18 val_main_v17 val_main_v16 val_main_v15 val_main_v14 val_main_call1_v0 val_main_call1_cst
      val_main_v13 val_main_v12 val_main_v11 val_main_v10 val_main_v9 val_main_call0_v0 val_main_call0_cst
    rw [host_row dot_S2000000x32_S32x64_S2000000x64_1_0_0_1_n_n rfl, host_row dot_S2000000x16_S16x32_S2000000x32_1_0_0_1_n_n rfl,
      host_row dot_S2000000x8_S8x16_S2000000x16_1_0_0_1_n_n rfl, host_row dot_S2000000x11_S11x8_S2000000x8_1_0_0_1_n_n rfl]
    rfl
  have hatt : row (val_main_v33 (F := Ideal) x0 x1 x2 x3 x12 x13) r = layer floor0 (row (val_main_v8 (F := Ideal) x0 x1 x2 x3) r) x12 x13 := by
    unfold val_main_v33 val_main_v32 val_main_v31 val_main_v30 val_main_v29 val_main_call4_v0 val_main_call4_cst
    rw [host_row dot_S2000000x11_S11x64_S2000000x64_1_0_0_1_n_n rfl]
    rfl
  have hscore : val_main_v37 (F := Ideal) x0 x1 x2 x3 x12 x13 x14 x15 (ix2 r (0 : Fin 1))
      = score (row (val_main_v8 (F := Ideal) x0 x1 x2 x3) r) x12 x13 x14 x15 := by
    unfold val_main_v37 val_main_v36 val_main_v35 val_main_v34
    rw [addf_apply, rowsInDim_apply, rowInDim_apply]
    refine congrArg (· + x15 (ix1 (0 : Fin 1))) ?_
    refine (congrFun (row_dotGeneral dot_S2000000x64_S64x1_S2000000x1_1_0_0_1_n_n rfl none
      (val_main_v33 (F := Ideal) x0 x1 x2 x3 x12 x13) x14 r) (0 : Fin 1)).trans ?_
    rw [hatt]
    rfl
  have hsig : val_main_v44 (F := Ideal) x0 x1 x2 x3 x12 x13 x14 x15 (ix2 r j)
      = Ideal.logistic (score (row (val_main_v8 (F := Ideal) x0 x1 x2 x3) r) x12 x13 x14 x15) := by
    unfold val_main_v44
    rw [RowOps.colInDim2_apply]
    unfold val_main_v43 val_main_v42 val_main_v41 val_main_v40 val_main_v39 val_main_v38 val_main_cst val_main_cst_1
    show Ideal.div (broadcastInDim S2000000x1 ![] bcast_S_S2000000x1 (constant (F := Ideal) S_ .f32 0x3F800000#32) (ix2 r (0 : Fin 1)))
      (broadcastInDim S2000000x1 ![] bcast_S_S2000000x1 (constant (F := Ideal) S_ .f32 0x3F800000#32) (ix2 r (0 : Fin 1))
        + Ideal.exp (-(val_main_v37 (F := Ideal) x0 x1 x2 x3 x12 x13 x14 x15 (ix2 r (0 : Fin 1))))) = _
    rw [splat_apply, hscore]
    exact quotient_is_logistic _
  show val_main_v28 (F := Ideal) x0 x1 x2 x3 x4 x5 x6 x7 x8 x9 x10 x11 (ix2 r j) * val_main_v44 (F := Ideal) x0 x1 x2 x3 x12 x13 x14 x15 (ix2 r j) = _
  rw [hsig]
  exact congrArg (· * Ideal.logistic (score (row (val_main_v8 (F := Ideal) x0 x1 x2 x3) r) x12 x13 x14 x15)) (congrFun hedge j)

/-- The reference's result is the cluster row function applied to every row of its cluster sums. -/
theorem clusters_eq (x0 : (⟨S2000000x8, .f32⟩ : BufTy).Contents (Elt Ideal)) (x1 : (⟨S2000000, .i32⟩ : BufTy).Contents (Elt Ideal)) (x2 : (⟨S65536x3, .f32⟩ : BufTy).Contents (Elt Ideal)) (x3 : (⟨S2000000x3, .f32⟩ : BufTy).Contents (Elt Ideal)) (x4 : (⟨S11x8, .f32⟩ : BufTy).Contents (Elt Ideal)) (x5 : (⟨S8, .f32⟩ : BufTy).Contents (Elt Ideal)) (x6 : (⟨S8x16, .f32⟩ : BufTy).Contents (Elt Ideal)) (x7 : (⟨S16, .f32⟩ : BufTy).Contents (Elt Ideal)) (x8 : (⟨S16x32, .f32⟩ : BufTy).Contents (Elt Ideal)) (x9 : (⟨S32, .f32⟩ : BufTy).Contents (Elt Ideal)) (x10 : (⟨S32x64, .f32⟩ : BufTy).Contents (Elt Ideal)) (x11 : (⟨S64, .f32⟩ : BufTy).Contents (Elt Ideal)) (x12 : (⟨S11x64, .f32⟩ : BufTy).Contents (Elt Ideal)) (x13 : (⟨S64, .f32⟩ : BufTy).Contents (Elt Ideal)) (x14 : (⟨S64x1, .f32⟩ : BufTy).Contents (Elt Ideal)) (x15 : (⟨S1, .f32⟩ : BufTy).Contents (Elt Ideal)) (x16 : (⟨S64x128, .f32⟩ : BufTy).Contents (Elt Ideal)) (x17 : (⟨S128, .f32⟩ : BufTy).Contents (Elt Ideal)) (x18 : (⟨S128x256, .f32⟩ : BufTy).Contents (Elt Ideal)) (x19 : (⟨S256, .f32⟩ : BufTy).Contents (Elt Ideal)) :
    val_main_v58 (F := Ideal) x0 x1 x2 x3 x4 x5 x6 x7 x8 x9 x10 x11 x12 x13 x14 x15 x16 x17 x18 x19
      = clusterArr (n := 65536) (val_main_v48 (F := Ideal) x0 x1 x2 x3 x4 x5 x6 x7 x8 x9 x10 x11 x12 x13 x14 x15) x16 x17 x18 x19 := by
  funext i
  obtain ⟨r, j, rfl⟩ : ∃ (r : Fin 65536) (j : Fin 256), i = ix2 r j := ⟨i 0, i 1, eq_ix2 i⟩
  rw [clusterArr_apply]
  refine congrFun (?_ : row (val_main_v58 (F := Ideal) x0 x1 x2 x3 x4 x5 x6 x7 x8 x9 x10 x11 x12 x13 x14 x15 x16 x17 x18 x19) r
    = clusterRow (row (val_main_v48 (F := Ideal) x0 x1 x2 x3 x4 x5 x6 x7 x8 x9 x10 x11 x12 x13 x14 x15) r) x16 x17 x18 x19) j
  unfold val_main_v58 val_main_v57 val_main_v56 val_main_v55 val_main_v54 val_main_call6_v0 val_main_call6_cst
    val_main_v53 val_main_v52 val_main_v51 val_main_v50 val_main_v49 val_main_call5_v0 val_main_call5_cst
  rw [host_row dot_S65536x128_S128x256_S65536x256_1_0_0_1_n_n rfl, host_row dot_S65536x64_S64x128_S65536x128_1_0_0_1_n_n rfl]
  rfl

end Cert.PointCluster.Ref

end
-- ==== Proof.KernelValue.lean ====
/-
  The kernel program's result as a function of its arguments.

  Before the first region the host gathers each point's cluster centre, subtracts the point's coordinates, joins the
  8 features and the 3 differences into the 2000000 × 11 input and changes its float format (the identity on
  extended reals); the weight arrays are untouched. The first region leaves every point's contribution. Between the
  regions the host changes the format back and scatter-adds the contributions into 65536 cluster rows by label. The
  second region leaves every cluster's output. The host's gather, join and scatter-add are the very operations the
  reference applies, so the result is stated through the reference's own stages for them.
-/
import proofs.«172056_j46961172414970_2_alg».proof.Proof.Gen.KernelIdeal.Frame
import proofs.«172056_j46961172414970_2_alg».proof.Proof.Gen.ReferenceIdeal.Read
import proofs.«172056_j46961172414970_2_alg».proof.Proof.Regions
import proofs.«172056_j46961172414970_2_alg».proof.Proof.Ref
import Idealize.ShloMosaic.Lib.StableHlo.Run

set_option maxRecDepth 16384

noncomputable section

namespace Cert.PointCluster.KernelValue

open Idealize.ShloMosaic Idealize.ShloMosaic.TcCoe Idealize.ShloMosaic.StableHlo Idealize.ShloMosaic.ValueIdx
open Idealize.SL.Sem
open Cert.KernelIdeal Cert.KernelIdeal.Gen Cert.PointCluster

variable (m : (ℓ : Loc nD τ sig) → Buf (Elt Ideal) ℓ) (ρ : Dev nD → PrngReg)

/-- No operation of a stretch of host operations writes the buffer in question: one inequality of references per operation. -/
local macro "not_written" : tactic => `(tactic| (
  simp only [hostOps0, hostOps1, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## What the first region finds -/

theorem entry0_arg4 (c : Dev nD) : V1 m ρ c main_arg4 = m ((c : Thread nD τ).loc main_arg4) :=
  StableHlo.after_of_forall_not_mem (b := Proc.devRef .tc main_arg4) _ _ (List.forall_iff_forall_mem.mp (by not_written))
theorem entry0_arg5 (c : Dev nD) : V1 m ρ c main_arg5 = m ((c : Thread nD τ).loc main_arg5) :=
  StableHlo.after_of_forall_not_mem (b := Proc.devRef .tc main_arg5) _ _ (List.forall_iff_forall_mem.mp (by not_written))
theorem entry0_arg6 (c : Dev nD) : V1 m ρ c main_arg6 = m ((c : Thread nD τ).loc main_arg6) :=
  StableHlo.after_of_forall_not_mem (b := Proc.devRef .tc main_arg6) _ _ (List.forall_iff_forall_mem.mp (by not_written))
theorem entry0_arg7 (c : Dev nD) : V1 m ρ c main_arg7 = m ((c : Thread nD τ).loc main_arg7) :=
  StableHlo.after_of_forall_not_mem (b := Proc.devRef .tc main_arg7) _ _ (List.forall_iff_forall_mem.mp (by not_written))
theorem entry0_arg8 (c : Dev nD) : V1 m ρ c main_arg8 = m ((c : Thread nD τ).loc main_arg8) :=
  StableHlo.after_of_forall_not_mem (b := Proc.devRef .tc main_arg8) _ _ (List.forall_iff_forall_mem.mp (by not_written))
theorem entry0_arg9 (c : Dev nD) : V1 m ρ c main_arg9 = m ((c : Thread nD τ).loc main_arg9) :=
  StableHlo.after_of_forall_not_mem (b := Proc.devRef .tc main_arg9) _ _ (List.forall_iff_forall_mem.mp (by not_written))
theorem entry0_arg10 (c : Dev nD) : V1 m ρ c main_arg10 = m ((c : Thread nD τ).loc main_arg10) :=
  StableHlo.after_of_forall_not_mem (b := Proc.devRef .tc main_arg10) _ _ (List.forall_iff_forall_mem.mp (by not_written))
theorem entry0_arg11 (c : Dev nD) : V1 m ρ c main_arg11 = m ((c : Thread nD τ).loc main_arg11) :=
  StableHlo.after_of_forall_not_mem (b := Proc.devRef .tc main_arg11) _ _ (List.forall_iff_forall_mem.mp (by not_written))
theorem entry0_arg12 (c : Dev nD) : V1 m ρ c main_arg12 = m ((c : Thread nD τ).loc main_arg12) :=
  StableHlo.after_of_forall_not_mem (b := Proc.devRef .tc main_arg12) _ _ (List.forall_iff_forall_mem.mp (by not_written))
theorem entry0_arg13 (c : Dev nD) : V1 m ρ c main_arg13 = m ((c : Thread nD τ).loc main_arg13) :=
  StableHlo.after_of_forall_not_mem (b := Proc.devRef .tc main_arg13) _ _ (List.forall_iff_forall_mem.mp (by not_written))
theorem entry0_arg14 (c : Dev nD) : V1 m ρ c main_arg14 = m ((c : Thread nD τ).loc main_arg14) :=
  StableHlo.after_of_forall_not_mem (b := Proc.devRef .tc main_arg14) _ _ (List.forall_iff_forall_mem.mp (by not_written))
theorem entry0_arg15 (c : Dev nD) : V1 m ρ c main_arg15 = m ((c : Thread nD τ).loc main_arg15) :=
  StableHlo.after_of_forall_not_mem (b := Proc.devRef .tc main_arg15) _ _ (List.forall_iff_forall_mem.mp (by not_written))

/-- The first region's input is the reference's joined array (the change of float format is the identity). -/
theorem entry0_input (c : Dev nD) : (V1 m ρ c main_v9 : S2000000x11.Idx → EReal)
    = Cert.ReferenceIdeal.Read.val_main_v8 (F := Ideal) (m ((c : Thread nD τ).loc main_arg0)) (m ((c : Thread nD τ).loc main_arg1)) (m ((c : Thread nD τ).loc main_arg2)) (m ((c : Thread nD τ).loc main_arg3)) := by
  show StableHlo.after hostOps0 (W0 m ρ c) (Proc.devRef .tc main_v9) = _
  after_results
  rfl

/-- After the first region: every point's contribution, from the arguments. -/
theorem points_value (c : Dev nD) : (dat0 (V1 m ρ) c).arrAt 13 cfg0.N
    = pointArr (n := 2000000) (Cert.ReferenceIdeal.Read.val_main_v8 (F := Ideal) (m ((c : Thread nD τ).loc main_arg0)) (m ((c : Thread nD τ).loc main_arg1)) (m ((c : Thread nD τ).loc main_arg2)) (m ((c : Thread nD τ).loc main_arg3)))
        (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [Regions.final0]
  unfold Regions.points
  rw [entry0_input, entry0_arg4, entry0_arg5, entry0_arg6, entry0_arg7, entry0_arg8, entry0_arg9, entry0_arg10, entry0_arg11,
    entry0_arg12, entry0_arg13, entry0_arg14, entry0_arg15]

/-! ## What the second region finds -/

theorem entry1_arg16 (c : Dev nD) : V3 m ρ c main_arg16 = m ((c : Thread nD τ).loc main_arg16) :=
  ((W4_arr m ρ c 1).trans (((dat1 (V3 m ρ) c).arrAt_in 1 rfl _).trans (A_eq1 (V3 m ρ) c 1))).symm.trans (W4_main_arg16 m ρ c)
theorem entry1_arg17 (c : Dev nD) : V3 m ρ c main_arg17 = m ((c : Thread nD τ).loc main_arg17) :=
  ((W4_arr m ρ c 2).trans (((dat1 (V3 m ρ) c).arrAt_in 2 rfl _).trans (A_eq1 (V3 m ρ) c 2))).symm.trans (W4_main_arg17 m ρ c)
theorem entry1_arg18 (c : Dev nD) : V3 m ρ c main_arg18 = m ((c : Thread nD τ).loc main_arg18) :=
  ((W4_arr m ρ c 3).trans (((dat1 (V3 m ρ) c).arrAt_in 3 rfl _).trans (A_eq1 (V3 m ρ) c 3))).symm.trans (W4_main_arg18 m ρ c)
theorem entry1_arg19 (c : Dev nD) : V3 m ρ c main_arg19 = m ((c : Thread nD τ).loc main_arg19) :=
  ((W4_arr m ρ c 4).trans (((dat1 (V3 m ρ) c).arrAt_in 4 rfl _).trans (A_eq1 (V3 m ρ) c 4))).symm.trans (W4_main_arg19 m ρ c)

/-- The labels are as launched when the host scatters by them. -/
theorem labels_kept (c : Dev nD) : W2 m ρ c (Proc.devRef .tc main_arg1) = m ((c : Thread nD τ).loc main_arg1) :=
  (W2_of_ne m ρ c main_arg1 (by decide)).trans
    (StableHlo.after_of_forall_not_mem (b := Proc.devRef .tc main_arg1) _ _ (List.forall_iff_forall_mem.mp (by not_written)))

/-- The second region's input: the contributions, scatter-added into cluster rows by label. -/
theorem entry1_input (c : Dev nD) : V3 m ρ c main_v14
    = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  show StableHlo.after hostOps1 (W2 m ρ c) (Proc.devRef .tc main_v14) = _
  after_results
  rw [labels_kept, show W2 m ρ c (Proc.devRef .tc main_v10) = (dat0 (V1 m ρ) c).arrAt 13 cfg0.N from W2_arr m ρ c 13, points_value,
    ← Ref.points_eq]
  rfl

/-- The result buffer at the end: every cluster's output, from the arguments. -/
theorem result_value (c : Dev nD) : (dat1 (V3 m ρ) c).arrAt 5 cfg1.N
    = clusterArr (n := 65536) (Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))
        (m ((c : Thread nD τ).loc main_arg16)) (m ((c : Thread nD τ).loc main_arg17)) (m ((c : Thread nD τ).loc main_arg18)) (m ((c : Thread nD τ).loc main_arg19)) := by
  rw [Regions.final1]
  unfold Regions.clusters
  rw [entry1_input, entry1_arg16, entry1_arg17, entry1_arg18, entry1_arg19]

end Cert.PointCluster.KernelValue

end
-- ==== Proof.lean ====
/-
  Two programs computing, for 2000000 points labelled by one of 65536 clusters, each cluster's output vector.

  Each point carries 8 features and 3 coordinates; its input row is the features joined with its cluster centre's
  coordinates minus its own. A point contributes  relu-MLP(row) · logistic(score(row))  (four clamped dense layers
  11 → 8 → 16 → 32 → 64 for the edge vector; a clamped dense layer 11 → 64 and an inner product for the score); the
  contributions of a cluster's points are added; two more clamped dense layers 64 → 128 → 256 give the output.

  The kernel program computes the contributions in blocks of 16000 rows and the outputs in blocks of 4096 rows, with
  the gather, the join and the scatter-add done by host operations; the reference does everything with whole-array
  host operations. Over the extended reals a change of float format is the identity, a product into a zero
  accumulator and the host's dot product are the same finite sum, a lane sum against a column of weights is the
  same sum as a product with a 64 × 1 matrix, and the logistic function is 1 / (1 + exp (−s)): so both programs apply
  the same two row functions to the same rows, around the same gather and scatter-add, and their results are equal
  entry by entry. No step uses that the inputs are finite.

  The three frame claims are the generated frame certificates (the reference's frame is its run with the result
  dropped); the idealization rewrote no operation, so the preservation claim is trivial.
-/
import proofs.«172056_j46961172414970_2_alg».proof.Defs
import proofs.«172056_j46961172414970_2_alg».proof.Proof.Gen.Kernel
import proofs.«172056_j46961172414970_2_alg».proof.Proof.Gen.Kernel.Skeleton
import proofs.«172056_j46961172414970_2_alg».proof.Proof.Gen.Kernel.Launch
import proofs.«172056_j46961172414970_2_alg».proof.Proof.Gen.Kernel.Points
import proofs.«172056_j46961172414970_2_alg».proof.Proof.Gen.Kernel.Frame
import proofs.«172056_j46961172414970_2_alg».proof.Proof.Gen.KernelIdeal
import proofs.«172056_j46961172414970_2_alg».proof.Proof.Gen.KernelIdeal.Skeleton
import proofs.«172056_j46961172414970_2_alg».proof.Proof.Gen.KernelIdeal.Launch
import proofs.«172056_j46961172414970_2_alg».proof.Proof.Gen.KernelIdeal.Points
import proofs.«172056_j46961172414970_2_alg».proof.Proof.Gen.KernelIdeal.Frame
import proofs.«172056_j46961172414970_2_alg».proof.Proof.Gen.ReferenceIdeal
import proofs.«172056_j46961172414970_2_alg».proof.Proof.Gen.Pre_finite_inputs
import proofs.«172056_j46961172414970_2_alg».proof.Proof.Gen.ReferenceIdeal.Run
import proofs.«172056_j46961172414970_2_alg».proof.Proof.Gen.ReferenceIdeal.Read
import proofs.«172056_j46961172414970_2_alg».proof.Proof.KernelRun
import proofs.«172056_j46961172414970_2_alg».proof.Proof.KernelValue
import proofs.«172056_j46961172414970_2_alg».proof.Proof.Ref
import Idealize.ShloMosaic.Adequacy
import Idealize.ShloMosaic.Init

noncomputable section

namespace Cert.Proof

open Idealize.ShloMosaic Idealize.ShloMosaic.TcCoe Idealize.SL.Sem Cert.PointCluster

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the cluster row function applied to every row of the scatter-added contributions. -/
theorem algebraic : Cert.algebraic_KernelIdeal_ReferenceIdeal := by
  intro m ρ m' ρ' _ hagree
  refine ⟨fun c => clusterArr (n := 65536)
      (Cert.ReferenceIdeal.Read.val_main_v48 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)))
      (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · exact (θ_run Cert.KernelIdeal.defs _ _).mono
      (fun r h c => ⟨(h c).1.trans (KernelValue.result_value m ρ c), (h c).2⟩) (KernelRun.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19⟩ := hagree c
    rw [Cert.ReferenceIdeal.Read.val_main_v58_eq, Ref.clusters_eq, h0, h1, h2, h3, h4, h5, h6, h7, h8, h9, h10, h11, h12, h13, h14, h15,
      h16, h17, h18, h19]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
